-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x2048x3 : Shape := ⟨3, ![1, 2048, 3]⟩
abbrev S1x3x1024 : Shape := ⟨3, ![1, 3, 1024]⟩
abbrev S1x2048x1 : Shape := ⟨3, ![1, 2048, 1]⟩
abbrev S1x1x4096 : Shape := ⟨3, ![1, 1, 4096]⟩
abbrev S2048x1 : Shape := ⟨2, ![2048, 1]⟩
abbrev S8x4096 : Shape := ⟨2, ![8, 4096]⟩
abbrev S2048x3 : Shape := ⟨2, ![2048, 3]⟩
abbrev S3x1024 : Shape := ⟨2, ![3, 1024]⟩
abbrev S2048x1024 : Shape := ⟨2, ![2048, 1024]⟩
abbrev S1x1024 : Shape := ⟨2, ![1, 1024]⟩
abbrev S2048 : Shape := ⟨1, ![2048]⟩
abbrev S1024 : Shape := ⟨1, ![1024]⟩
abbrev S8x1024 : Shape := ⟨2, ![8, 1024]⟩
abbrev S1x4096 : Shape := ⟨2, ![1, 4096]⟩
abbrev S_ : Shape := ⟨0, ![]⟩

abbrev nBuf : Space → Nat
  | .hbm => 14
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x2048x1, .f32⟩
  | .local _ .vmem, ⟨5, _⟩ => ⟨S1x2048x1, .f32⟩
  | .local _ .vmem, ⟨6, _⟩ => ⟨S1x1x4096, .f32⟩
  | .local _ .vmem, ⟨7, _⟩ => ⟨S1x1x4096, .f32⟩
  | .local _ .vmem, ⟨8, _⟩ => ⟨S2048x1, .f32⟩
  | .local _ .vmem, ⟨9, _⟩ => ⟨S8x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c1024_i32 : BitVec 32 := 1024#32
  let v47 : BitVec 32 := Scalar.muli arg2 c1024_i32
  v47
def k0_off1 (i : grid0.Coords) : Fin 2 → Nat :=
  let c0_16 : Index := 0#32
  let arg2 : BitVec 32 := BitVec.ofNat 32 (i 2).val
  let c1024_i32 : BitVec 32 := 1024#32
  let v47 : BitVec 32 := Scalar.muli arg2 c1024_i32
  let v48 : BitVec 32 := v47
  let v49 : Index := Scalar.indexCast v48
  ![0, v49.toNat]
def k0_cond3 (i : grid0.Coords) : BitVec 1 :=
  let arg2 : BitVec 32 := BitVec.ofNat 32 (i 2).val
  let c3_i32 : BitVec 32 := 3#32
  let v56 : BitVec 1 := Scalar.cmpi .eq arg2 c3_i32
  let v57 : BitVec 32 := Scalar.extui v56
  let c0_i32_18 : BitVec 32 := 0#32
  let v58 : BitVec 1 := Scalar.cmpi .ne v57 c0_i32_18
  v58

def k0_cond4 (i : grid0.Coords) : BitVec 1 :=
  let arg1 : BitVec 32 := BitVec.ofNat 32 (i 1).val
  let c1_i32 : BitVec 32 := 1#32
  let v59 : BitVec 1 := Scalar.cmpi .eq arg1 c1_i32
  let arg2 : BitVec 32 := BitVec.ofNat 32 (i 2).val
  let c3_i32_19 : BitVec 32 := 3#32
  let v60 : BitVec 1 := Scalar.cmpi .eq arg2 c3_i32_19
  let v61 : BitVec 1 := Scalar.andi v59 v60
  let v62 : BitVec 32 := Scalar.extui v61
  let c0_i32_20 : BitVec 32 := 0#32
  let v63 : BitVec 1 := Scalar.cmpi .ne v62 c0_i32_20
  v63

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S8x4096x3_S8x3x4096_0_2_1 : S8x4096x3.Transposes [0, 2, 1] S8x3x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S2048 : S2048x1024.Reduces [1] S2048
  shapeCasts_S2048_S2048x1 : S2048.ShapeCasts S2048x1
  reduces_S2048x1024_S1024 : S2048x1024.Reduces [0] S1024
  shapeCasts_S1024_S1x1024 : S1024.ShapeCasts S1x1024
  shapeCasts_S1x1024_S1x1024 : S1x1024.ShapeCasts S1x1024
  broadcasts_S1x1024_S8x1024 : S1x1024.Broadcasts S8x1024
  h_S8x1024 : 0 < S8x1024.numel
  shapeCasts_S8x1024_S8x1024 : S8x1024.ShapeCasts S8x1024
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  inb_S8x4096_S1x4096_0_0 : ∀ a, (![0, 0] : Fin 2 → Nat) a + S1x4096.size a ≤ S8x4096.size a
  h_S1x4096 : 0 < S1x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S8x4096x1_S_d0_1_2 : S8x4096x1.ReducesTo [0, 1, 2] S_
  h_S_ : 0 < S_.numel
  reducesTo_S8x1x4096_S_d0_1_2 : S8x1x4096.ReducesTo [0, 1, 2] S_
  hrank0 : 0 < grid0.rank
  k0_mult1_dvd : ∀ i : grid0.Coords, 1024 ∣ (k0_mult1 i).toNat
  k0_off1_inb : ∀ i : grid0.Coords, ∀ a, (k0_off1 i) a + S8x1024.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S8x4096x3.size a
  hwx0_0 : ∀ i : grid0.Coords, EltTy.bits .f32 = 32 ∨ (Rect.block (s := S8x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S8x4096x1.size a
  hwx0_2 : ∀ i : grid0.Coords, EltTy.bits .f32 = 32 ∨ (Rect.block (s := S8x4096x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The Chamfer distance between two batched point clouds in 3-space, on the extended reals.

  For a table `D b n m` of pairwise (clamped, squared) distances between point `n` of the first cloud and point `m`
  of the second, in batch `b`, the Chamfer value is the mean over (b, n) of the distance from point `n` to its nearest
  neighbour `⨅ m, D b n m`, plus the mean over (b, m) of `⨅ n, D b n m`: both directions of nearest-neighbour search
  read one table. The means are a sum started at the float zero and a quotient by the float 32768 = 8 · 4096.

  `sqDiff` is the table in difference form: the squared differences of the three coordinates, added up from the float
  zero in coordinate order, clamped below at zero.
-/
import Idealize.ShloMosaic.PureOps.Ideal
import Idealize.ShloMosaic.Lib.ValueIdx

noncomputable section

namespace Cert.Chamfer

open Idealize.ShloMosaic Idealize.ShloMosaic.ValueIdx

/-- Eight batches of 4096 points with three coordinates each, as extended reals. -/
abbrev Cloud : Type := (⟨3, ![8, 4096, 3]⟩ : Shape).Idx → EReal

/-- The float zero word read as an extended real (it is `0`; kept as the word so that both programs' terms show it
    unevaluated). -/
abbrev z32 : EReal := Ideal.ofBits .f32 0x00000000#32

/-- Squared distance between point `n` of `X` and point `m` of `Y` in batch `b`, as the sum of the three squared coordinate
    differences taken in order from zero, clamped below at zero. -/
def sqDiff (X Y : Cloud) (b : Fin 8) (n m : Fin 4096) : EReal :=
  max (((z32 + (X (ix3 b n 0) - Y (ix3 b m 0)) * (X (ix3 b n 0) - Y (ix3 b m 0)))
        + (X (ix3 b n 1) - Y (ix3 b m 1)) * (X (ix3 b n 1) - Y (ix3 b m 1)))
        + (X (ix3 b n 2) - Y (ix3 b m 2)) * (X (ix3 b n 2) - Y (ix3 b m 2))) z32

/-- The Chamfer value of a distance table: mean nearest-neighbour distance in each direction, added. -/
def chamfer (D : Fin 8 → Fin 4096 → Fin 4096 → EReal) : EReal :=
  Ideal.div (z32 + ∑ b : Fin 8, ∑ n : Fin 4096, ⨅ m : Fin 4096, D b n m) (Ideal.ofBits .f32 0x47000000#32)
    + Ideal.div (z32 + ∑ b : Fin 8, ∑ m : Fin 4096, ⨅ n : Fin 4096, D b n m) (Ideal.ofBits .f32 0x47000000#32)

end Cert.Chamfer

end
-- ==== Proof.Sweep.lean ====
/-
  The kernel's sweep over its grid, named.

  Point `t` of the 8 × 2 × 4 grid (batch, row tile, column tile; `t = 8·b + 4·i + j`) works on rows
  `2048·i … 2048·i + 2047` of the first cloud and columns `1024·j … 1024·j + 1023` of the transposed second cloud, in
  batch `b`. `dist` is the table of clamped squared distances as the kernel's body computes it from the two arrays the
  region is launched on (the first cloud, and the second cloud transposed to coordinate-major).
-/
import proofs.«120116_j62191126446336_2_alg».proof.Proof.Gen.KernelIdeal.Frame
import proofs.«120116_j62191126446336_2_alg».proof.Proof.Spec
import Idealize.ShloMosaic.Lib.ValueIdx

noncomputable section

open Idealize.ShloMosaic Idealize.ShloMosaic.TcCoe Idealize.SL.Sem

namespace Cert.KernelIdeal.Sweep

open Cert.KernelIdeal Cert.KernelIdeal.Gen Idealize.ShloMosaic.ValueIdx

variable (m : (ℓ : Loc nD τ sig) → Buf (Elt Ideal) ℓ)

/-- The grid has 64 points. -/
theorem N64 : cfg0.N = 64 := N_0

/-- The batch of point `t`. -/
def bOf (t : Fin cfg0.N) : Fin 8 := ⟨t.val / 8, by have h := t.isLt; have hN : cfg0.N = 64 := N_0; omega⟩

/-- Row `r` of point `t`'s row tile, as a row of the cloud. -/
def rowOf (t : Fin cfg0.N) (r : Fin 2048) : Fin 4096 := ⟨2048 * (t.val / 4 % 2) + r.val, by have := r.isLt; omega⟩

/-- Column `q` of point `t`'s column tile, as a column of the transposed cloud. -/
def colOf (t : Fin cfg0.N) (q : Fin 1024) : Fin 4096 := ⟨1024 * (t.val % 4) + q.val, by have := q.isLt; omega⟩

/-- The first cloud as the region finds it. -/
abbrev ptsX (c : Dev nD) : S8x4096x3.Idx → EReal := V m c main_arg0

/-- The second cloud, transposed to [batch, coordinate, point], as the region finds it. -/
abbrev ptsYt (c : Dev nD) : S8x3x4096.Idx → EReal := V m c main_v0

/-- Clamped squared distance between point `n` of the first cloud and point `k` of the second, in batch `b`: the three
    squared coordinate differences added in order from zero, clamped below at zero. -/
def dist (c : Dev nD) (b : Fin 8) (n k : Fin 4096) : EReal :=
  max (((Cert.Chamfer.z32 + (ptsX m c (ix3 b n 0) - ptsYt m c (ix3 b 0 k)) * (ptsX m c (ix3 b n 0) - ptsYt m c (ix3 b 0 k)))
        + (ptsX m c (ix3 b n 1) - ptsYt m c (ix3 b 1 k)) * (ptsX m c (ix3 b n 1) - ptsYt m c (ix3 b 1 k)))
        + (ptsX m c (ix3 b n 2) - ptsYt m c (ix3 b 2 k)) * (ptsX m c (ix3 b n 2) - ptsYt m c (ix3 b 2 k))) Cert.Chamfer.z32

/-- What the first result array must end holding: at (b, n, 0) the distance from point `n` to its nearest neighbour. -/
def nearest1 (c : Dev nD) : S8x4096x1.Idx → EReal := fun i => ⨅ k : Fin 4096, dist m c (i 0) (i 1) k

/-- What the second result array must end holding: at (b, 0, k) the distance from point `k` of the second cloud to its
    nearest neighbour in the first. -/
def nearest2 (c : Dev nD) : S8x1x4096.Idx → EReal := fun i => ⨅ n : Fin 4096, dist m c (i 0) n (i 2)

/-- At every point that closes a row sweep (last column tile), the first output's block holds, for each of the tile's
    rows, the minimum over ALL columns. -/
def RowsDone (c : Dev nD) : Prop :=
  ∀ t : Fin cfg0.N, t.val % 4 = 3 → ∀ r : Fin 2048,
    (outsAt0 m c t.val t.isLt).1 (ix3 (0 : Fin 1) r (0 : Fin 1)) = ⨅ k : Fin 4096, dist m c (bOf t) (rowOf t r) k

/-- At the last point of every batch, the second output's block holds, for each column, the minimum over ALL rows. -/
def ColsDone (c : Dev nD) : Prop :=
  ∀ t : Fin cfg0.N, t.val % 8 = 7 → ∀ k : Fin 4096,
    (outsAt0 m c t.val t.isLt).2.1 (ix3 (0 : Fin 1) (0 : Fin 1) k) = ⨅ n : Fin 4096, dist m c (bOf t) n k

end Cert.KernelIdeal.Sweep

end
-- ==== Proof.Pieces.lean ====
/-
  Reading back what a list of stores leaves in a buffer.

  * The zero offsets of a whole-buffer access, spelt as the constant function.
  * One store through a unit-stride rectangle over known contents: under the rectangle the stored value at the
    position inside it, elsewhere the old contents.
  * One whole-buffer store over anything: the stored value.
-/
import proofs.«120116_j62191126446336_2_alg».proof.Proof.Gen.KernelIdeal.Frame
import Idealize.ShloMosaic.Lib.Pipeline.Value
import Idealize.ShloMosaic.Lib.Tactic
import Idealize.ShloMosaic.Lib.WritesUnit

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One store through a unit-stride rectangle into a whole buffer holding `X`: an index under the rectangle reads the
    stored value at its position inside the rectangle, any other index still reads `X`. -/
theorem read_store_over {s : Shape} {e : EltTy} {Val : EltTy → Type} (M : Memref sig .tc .vmem s e) (hM : M.IsWhole)
    (X : s.Idx → Val e) {off off' size : Fin s.rank → ℕ} (inb : ∀ a, off a + size a ≤ s.size a)
    (w : (Rect.unit off size inb).shape.Idx → Val e) (y : s.Idx) (heq : off = off') :
    M.view.read Val (M.view.writes Val (hM.unread X) [(⟨Rect.unit off size inb, w⟩ : View.Piece Val s e)]) y
      = if h : ∀ a, off' a ≤ (y a).val ∧ (y a).val < off' a + size a then
          w (Rect.unitLocal (s := s) (off := off') (size := size) y h)
        else X y := by
  rw [View.read_writes_cons_unit M.view (hM.unread X) inb w [] y heq, View.writes_nil, hM.read_unread]

end Cert.KernelIdeal.Pieces

end
-- ==== Proof.PiecesA.lean ====
/-
  What the body leaves at the first point of a batch (first row tile, first column tile): both accumulators are reset
  to +∞ and then take this tile's row minima and, on its columns, its column minima.
-/
import proofs.«120116_j62191126446336_2_alg».proof.Proof.Gen.KernelIdeal.Frame
import Idealize.ShloMosaic.Lib.Pipeline.Value
import Idealize.ShloMosaic.Lib.Tactic
import Idealize.ShloMosaic.Lib.WritesUnit
import proofs.«120116_j62191126446336_2_alg».proof.Proof.Pieces
set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Case A: the row accumulator is reset to +∞ and then takes this tile's row minima. -/
theorem row_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : cond0_0 i) (hc1 : cond0_1 i) (hc2 : ¬cond0_2 i) (hc3 : ¬cond0_3 i)
    (x0 : Vec F S1x2048x3 .f32) (x1 : Vec F S1x3x1024 .f32) :
    sout0_A_0 c i arg3 harg3 arg4 harg4 arg5 harg5 arg6 harg6 arg7 harg7 arg8 harg8 hc0 hc1 hc2 hc3 x0 x1 = k0_pay1 (k0_pay8 x0 x1) k0_pay6 := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S2048x1) hz2, View.readCov_unit_zero (S := S2048x1) _ hz2]
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]

/-- Case A: the column accumulator, reset to +∞ everywhere, is overwritten on this tile's columns by the minimum of
    +∞ and the tile's column minima; elsewhere it stays +∞. -/
theorem col_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : cond0_0 i) (hc1 : cond0_1 i) (hc2 : ¬cond0_2 i) (hc3 : ¬cond0_3 i)
    (x0 : Vec F S1x2048x3 .f32) (x1 : Vec F S1x3x1024 .f32) (off' : Fin 2 → ℕ) (hoff : k0_off1 i = off') (y : S8x4096.Idx) :
    sout0_A_1 c i arg3 harg3 arg4 harg4 arg5 harg5 arg6 harg6 arg7 harg7 arg8 harg8 hc0 hc1 hc2 hc3 x0 x1 y
      = if h : ∀ a, off' a ≤ (y a).val ∧ (y a).val < off' a + S8x1024.size a then
          k0_pay2 (k0_pay7 x0 x1) (View.ld (S := S8x4096) (k0_pay5 (F := F)) (Rect.unit (s := S8x4096) (k0_off1 i) S8x1024.size (k0_off1_inb i)))
            (Rect.unitLocal (s := S8x4096) (off := off') (size := S8x1024.size) y h)
        else k0_pay5 (F := F) y := by
  unfold sout0_A_1
  unfold kernelRun0_A
  dsimp only
  sl_unfold_words
  have hw : ∀ (v : View sig .tc .vmem S8x4096 .f32) (f : v.ty.Contents (Elt F)),
      v.read (Elt F) (v.writes (Elt F) f [(⟨Rect.unit ![0, 0] S8x4096.size inb_S8x4096_S8x4096_0_0, k0_pay5 (F := F)⟩ : View.Piece (Elt F) S8x4096 .f32)])
        = k0_pay5 (F := F) := fun v f => by
    funext z
    exact (View.read_writes_cons_unit_of_mem v f inb_S8x4096_S8x4096_0_0 (k0_pay5 (F := F)) [] z z rfl
      (fun a => by fin_cases a <;> simp))
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2, hw]
  refine (View.read_writes_cons_unit VS0_1 VS0_1.junk (k0_off1_inb i) _ _ y hoff).trans ?_
  simp only [hw]

end Cert.KernelIdeal.Pieces

end
-- ==== Proof.PiecesB.lean ====
/-
  What the body leaves in its two carried accumulators at a point in the interior of a row sweep (not the first and
  not the last column tile): read off the stores the run found.
-/
import proofs.«120116_j62191126446336_2_alg».proof.Proof.Gen.KernelIdeal.Frame
import Idealize.ShloMosaic.Lib.Pipeline.Value
import Idealize.ShloMosaic.Lib.Tactic
import Idealize.ShloMosaic.Lib.WritesUnit
import proofs.«120116_j62191126446336_2_alg».proof.Proof.Pieces
set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Case B: the row accumulator ends at the minimum of what the point before left and this tile's row minima. -/
theorem row_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : ¬cond0_1 i) (hc2 : ¬cond0_2 i) (hc3 : ¬cond0_3 i)
    (x0 : Vec F S1x2048x3 .f32) (x1 : Vec F S1x3x1024 .f32) (xs0 : Vec F S2048x1 .f32) (xs1 : Vec F S8x4096 .f32) :
    sout0_B_0 c i arg3 harg3 arg4 harg4 arg5 harg5 arg6 harg6 arg7 harg7 arg8 harg8 hc0 hc1 hc2 hc3 x0 x1 xs0 xs1 = k0_pay1 (k0_pay8 x0 x1) xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero hz2]
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]

/-- Case B: the column accumulator is overwritten only on this tile's columns, there by the minimum of its old
    values and the tile's column minima. -/
theorem col_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : ¬cond0_1 i) (hc2 : ¬cond0_2 i) (hc3 : ¬cond0_3 i)
    (x0 : Vec F S1x2048x3 .f32) (x1 : Vec F S1x3x1024 .f32) (xs0 : Vec F S2048x1 .f32) (xs1 : Vec F S8x4096 .f32) (off' : Fin 2 → ℕ) (hoff : k0_off1 i = off') (y : S8x4096.Idx) :
    sout0_B_1 c i arg3 harg3 arg4 harg4 arg5 harg5 arg6 harg6 arg7 harg7 arg8 harg8 hc0 hc1 hc2 hc3 x0 x1 xs0 xs1 y
      = if h : ∀ a, off' a ≤ (y a).val ∧ (y a).val < off' a + S8x1024.size a then
          k0_pay2 (k0_pay7 x0 x1) (View.ld xs1 (Rect.unit (k0_off1 i) S8x1024.size (k0_off1_inb i)))
            (Rect.unitLocal (s := S8x4096) (off := off') (size := S8x1024.size) y h)
        else xs1 y := by
  unfold sout0_B_1
  unfold kernelRun0_B
  dsimp only
  sl_unfold_words
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]
  exact read_store_over arg8 harg8 xs1 (k0_off1_inb i) _ y hoff

end Cert.KernelIdeal.Pieces

end
-- ==== Proof.PiecesC.lean ====
/-
  What the body leaves at the point that closes a row sweep but not the batch (last column tile, first row tile): the
  two carried accumulators as in the interior, and the first output's block stored with the finished row minima.
-/
import proofs.«120116_j62191126446336_2_alg».proof.Proof.Gen.KernelIdeal.Frame
import Idealize.ShloMosaic.Lib.Pipeline.Value
import Idealize.ShloMosaic.Lib.Tactic
import Idealize.ShloMosaic.Lib.WritesUnit
import proofs.«120116_j62191126446336_2_alg».proof.Proof.Pieces
set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Case C: the row accumulator ends at the minimum of what the point before left and this tile's row minima. -/
theorem row_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : ¬cond0_1 i) (hc2 : cond0_2 i) (hc3 : ¬cond0_3 i)
    (x0 : Vec F S1x2048x3 .f32) (x1 : Vec F S1x3x1024 .f32) (xs0 : Vec F S2048x1 .f32) (xs1 : Vec F S8x4096 .f32) :
    sout0_C_0 c i arg3 harg3 arg4 harg4 arg5 harg5 arg6 harg6 arg7 harg7 arg8 harg8 hc0 hc1 hc2 hc3 x0 x1 xs0 xs1 = k0_pay1 (k0_pay8 x0 x1) xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz2]
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]

/-- Case C: the column accumulator is overwritten only on this tile's columns, there by the minimum of its old
    values and the tile's column minima. -/
theorem col_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : ¬cond0_1 i) (hc2 : cond0_2 i) (hc3 : ¬cond0_3 i)
    (x0 : Vec F S1x2048x3 .f32) (x1 : Vec F S1x3x1024 .f32) (xs0 : Vec F S2048x1 .f32) (xs1 : Vec F S8x4096 .f32) (off' : Fin 2 → ℕ) (hoff : k0_off1 i = off') (y : S8x4096.Idx) :
    sout0_C_1 c i arg3 harg3 arg4 harg4 arg5 harg5 arg6 harg6 arg7 harg7 arg8 harg8 hc0 hc1 hc2 hc3 x0 x1 xs0 xs1 y
      = if h : ∀ a, off' a ≤ (y a).val ∧ (y a).val < off' a + S8x1024.size a then
          k0_pay2 (k0_pay7 x0 x1) (View.ld xs1 (Rect.unit (k0_off1 i) S8x1024.size (k0_off1_inb i)))
            (Rect.unitLocal (s := S8x4096) (off := off') (size := S8x1024.size) y h)
        else xs1 y := by
  unfold sout0_C_1
  unfold kernelRun0_C
  dsimp only
  sl_unfold_words
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]
  exact read_store_over arg8 harg8 xs1 (k0_off1_inb i) _ y hoff

/-- Case C: the first output's block is stored with the row accumulator as this point leaves it. -/
theorem out2_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : ¬cond0_1 i) (hc2 : cond0_2 i) (hc3 : ¬cond0_3 i)
    (x0 : Vec F S1x2048x3 .f32) (x1 : Vec F S1x3x1024 .f32) (xs0 : Vec F S2048x1 .f32) (xs1 : Vec F S8x4096 .f32) :
    out0_C_2 c i arg3 harg3 arg4 harg4 arg5 harg5 arg6 harg6 arg7 harg7 arg8 harg8 hc0 hc1 hc2 hc3 x0 x1 xs0 xs1 = k0_pay3 (k0_pay1 (k0_pay8 x0 x1) xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz3, View.readCov_unit_zero (S := S2048x1) _ hz2]
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]

end Cert.KernelIdeal.Pieces

end
-- ==== Proof.PiecesD.lean ====
/-
  What the body leaves at the first column tile of the second row tile: the row accumulator restarted, the column
  accumulator carried on from the first row tile.
-/
import proofs.«120116_j62191126446336_2_alg».proof.Proof.Gen.KernelIdeal.Frame
import Idealize.ShloMosaic.Lib.Pipeline.Value
import Idealize.ShloMosaic.Lib.Tactic
import Idealize.ShloMosaic.Lib.WritesUnit
import proofs.«120116_j62191126446336_2_alg».proof.Proof.Pieces
set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Case D: the row accumulator is reset to +∞ and then takes this tile's row minima. -/
theorem row_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : cond0_1 i) (hc2 : ¬cond0_2 i) (hc3 : ¬cond0_3 i)
    (x0 : Vec F S1x2048x3 .f32) (x1 : Vec F S1x3x1024 .f32) (xs1 : Vec F S8x4096 .f32) :
    sout0_D_0 c i arg3 harg3 arg4 harg4 arg5 harg5 arg6 harg6 arg7 harg7 arg8 harg8 hc0 hc1 hc2 hc3 x0 x1 xs1 = k0_pay1 (k0_pay8 x0 x1) k0_pay6 := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S2048x1) hz2, View.readCov_unit_zero (S := S2048x1) _ hz2]
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]

/-- Case D: the column accumulator is overwritten only on this tile's columns, there by the minimum of its old
    values and the tile's column minima. -/
theorem col_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : cond0_1 i) (hc2 : ¬cond0_2 i) (hc3 : ¬cond0_3 i)
    (x0 : Vec F S1x2048x3 .f32) (x1 : Vec F S1x3x1024 .f32) (xs1 : Vec F S8x4096 .f32) (off' : Fin 2 → ℕ) (hoff : k0_off1 i = off') (y : S8x4096.Idx) :
    sout0_D_1 c i arg3 harg3 arg4 harg4 arg5 harg5 arg6 harg6 arg7 harg7 arg8 harg8 hc0 hc1 hc2 hc3 x0 x1 xs1 y
      = if h : ∀ a, off' a ≤ (y a).val ∧ (y a).val < off' a + S8x1024.size a then
          k0_pay2 (k0_pay7 x0 x1) (View.ld xs1 (Rect.unit (k0_off1 i) S8x1024.size (k0_off1_inb i)))
            (Rect.unitLocal (s := S8x4096) (off := off') (size := S8x1024.size) y h)
        else xs1 y := by
  unfold sout0_D_1
  unfold kernelRun0_D
  dsimp only
  sl_unfold_words
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]
  exact read_store_over arg8 harg8 xs1 (k0_off1_inb i) _ y hoff

end Cert.KernelIdeal.Pieces

end
-- ==== Proof.PiecesE.lean ====
/-
  What the body leaves at the last point of a batch (last column tile of the last row tile): the accumulators as in the
  interior, the first output's block stored with the finished row minima and the second output's block with row 0 of
  the finished column accumulator.
-/
import proofs.«120116_j62191126446336_2_alg».proof.Proof.Gen.KernelIdeal.Frame
import Idealize.ShloMosaic.Lib.Pipeline.Value
import Idealize.ShloMosaic.Lib.Tactic
import Idealize.ShloMosaic.Lib.WritesUnit
import proofs.«120116_j62191126446336_2_alg».proof.Proof.Pieces
set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Case E: the row accumulator ends at the minimum of what the point before left and this tile's row minima. -/
theorem row_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : ¬cond0_1 i) (hc2 : cond0_2 i) (hc3 : cond0_3 i)
    (x0 : Vec F S1x2048x3 .f32) (x1 : Vec F S1x3x1024 .f32) (xs0 : Vec F S2048x1 .f32) (xs1 : Vec F S8x4096 .f32) :
    sout0_E_0 c i arg3 harg3 arg4 harg4 arg5 harg5 arg6 harg6 arg7 harg7 arg8 harg8 hc0 hc1 hc2 hc3 x0 x1 xs0 xs1 = k0_pay1 (k0_pay8 x0 x1) xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz2]
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]

/-- Case E: the column accumulator is overwritten only on this tile's columns, there by the minimum of its old
    values and the tile's column minima. -/
theorem col_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : ¬cond0_1 i) (hc2 : cond0_2 i) (hc3 : cond0_3 i)
    (x0 : Vec F S1x2048x3 .f32) (x1 : Vec F S1x3x1024 .f32) (xs0 : Vec F S2048x1 .f32) (xs1 : Vec F S8x4096 .f32) (off' : Fin 2 → ℕ) (hoff : k0_off1 i = off') (y : S8x4096.Idx) :
    sout0_E_1 c i arg3 harg3 arg4 harg4 arg5 harg5 arg6 harg6 arg7 harg7 arg8 harg8 hc0 hc1 hc2 hc3 x0 x1 xs0 xs1 y
      = if h : ∀ a, off' a ≤ (y a).val ∧ (y a).val < off' a + S8x1024.size a then
          k0_pay2 (k0_pay7 x0 x1) (View.ld xs1 (Rect.unit (k0_off1 i) S8x1024.size (k0_off1_inb i)))
            (Rect.unitLocal (s := S8x4096) (off := off') (size := S8x1024.size) y h)
        else xs1 y := by
  unfold sout0_E_1
  unfold kernelRun0_E
  dsimp only
  sl_unfold_words
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]
  exact read_store_over arg8 harg8 xs1 (k0_off1_inb i) _ y hoff

/-- Case E: the first output's block is stored with the row accumulator as this point leaves it. -/
theorem out2_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : ¬cond0_1 i) (hc2 : cond0_2 i) (hc3 : cond0_3 i)
    (x0 : Vec F S1x2048x3 .f32) (x1 : Vec F S1x3x1024 .f32) (xs0 : Vec F S2048x1 .f32) (xs1 : Vec F S8x4096 .f32) :
    out0_E_2 c i arg3 harg3 arg4 harg4 arg5 harg5 arg6 harg6 arg7 harg7 arg8 harg8 hc0 hc1 hc2 hc3 x0 x1 xs0 xs1 = k0_pay3 (k0_pay1 (k0_pay8 x0 x1) xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3, View.readCov_unit_zero (S := S2048x1) _ hz2]
  simp only [View.readAt_eq_ld, harg3.read_unread, harg4.read_unread, harg7.read_unread, harg8.read_unread, View.ld_unit_zero (S := S1x2048x3) hz3, View.ld_unit_zero (S := S1x3x1024) hz3, View.ld_unit_zero (S := S2048x1) hz2]

/-- Case E: the second output's block is stored with row 0 of the column accumulator as this point leaves it. -/
theorem out3_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S8x4096 .f32) (harg8 : arg8.IsWhole) (hc0 : ¬cond0_0 i) (hc1 : ¬cond0_1 i) (hc2 : cond0_2 i) (hc3 : cond0_3 i)
    (x0 : Vec F S1x2048x3 .f32) (x1 : Vec F S1x3x1024 .f32) (xs0 : Vec F S2048x1 .f32) (xs1 : Vec F S8x4096 .f32) :
    out0_E_3 c i arg3 harg3 arg4 harg4 arg5 harg5 arg6 harg6 arg7 harg7 arg8 harg8 hc0 hc1 hc2 hc3 x0 x1 xs0 xs1
      = k0_pay4 (View.ld (sout0_E_1 c i arg3 harg3 arg4 harg4 arg5 harg5 arg6 harg6 arg7 harg7 arg8 harg8 hc0 hc1 hc2 hc3 x0 x1 xs0 xs1) (Rect.unit ![0, 0] S1x4096.size inb_S8x4096_S1x4096_0_0)) := by
  unfold out0_E_3
  rw [View.read_writes_eq_canon _ _ _ (cover0_E_3 c i arg3 harg3 arg4 harg4 arg5 harg5 arg6 harg6 arg7 harg7 arg8 harg8 hc0 hc1 hc2 hc3 x0 x1 xs0 xs1)]
  unfold sout0_E_1
  unfold kernelRun0_E
  dsimp only
  sl_unfold_words
  rw [View.canon_unit_zero hz3]
  simp only [View.readAt_eq_ld]

end Cert.KernelIdeal.Pieces

end
-- ==== Proof.SweepAt.lean ====
/-
  The two accumulators and the two output blocks after the body at a point, case by case.

  Whatever the case, the row accumulator ends at `rowUpd` of what it held before (the old contents, or +∞ where the
  case resets it), and the column accumulator at `colUpd` of what it held before: on this tile's columns the minimum
  of the old value and the tile's column minimum, elsewhere unchanged. The cases differ only in what "before" is
  and in which output blocks are stored.
-/
import proofs.«120116_j62191126446336_2_alg».proof.Proof.Sweep
import proofs.«120116_j62191126446336_2_alg».proof.Proof.PiecesA
import proofs.«120116_j62191126446336_2_alg».proof.Proof.PiecesB
import proofs.«120116_j62191126446336_2_alg».proof.Proof.PiecesC
import proofs.«120116_j62191126446336_2_alg».proof.Proof.PiecesD
import proofs.«120116_j62191126446336_2_alg».proof.Proof.PiecesE

set_option maxRecDepth 16384

noncomputable section

open Idealize.ShloMosaic Idealize.ShloMosaic.TcCoe Idealize.SL.Sem

namespace Cert.KernelIdeal.Sweep

open Cert.KernelIdeal Cert.KernelIdeal.Gen Cert.KernelIdeal.Pieces Idealize.ShloMosaic.ValueIdx

variable (m : (ℓ : Loc nD τ sig) → Buf (Elt Ideal) ℓ)

/-- The grid's column-tile coordinate of point `t`. -/
theorem coord2 : ∀ t : Fin cfg0.N, ((grid0.coords t) 2).val = t.val % 4 :=
  (by decide +kernel : ∀ t : Fin grid0.N, ((grid0.coords t) 2).val = t.val % 4)

/-- The offsets of the column accumulator's access at point `t`: row 0, column `1024 · (t mod 4)`. -/
theorem off_at (t : Fin cfg0.N) : k0_off1 (grid0.coords t) = ![0, 1024 * (t.val % 4)] := by
  rw [k0_off1_eq, coord2]

/-- The row accumulator after the body at `t`, from its contents before: the minimum with this tile's row minima. -/
def rowUpd (c : Dev nD) (t : Fin cfg0.N) (prev : Vec Ideal S2048x1 .f32) : Vec Ideal S2048x1 .f32 :=
  k0_pay1 (F := Ideal) (k0_pay8 (iblk m c 0 t) (iblk m c 1 t)) prev

/-- The column accumulator after the body at `t`, from its contents before: on the tile's 1024 columns (all eight
    rows) the minimum with the tile's column minima, elsewhere unchanged. -/
def colUpd (c : Dev nD) (t : Fin cfg0.N) (prev : Vec Ideal S8x4096 .f32) : Vec Ideal S8x4096 .f32 := fun y =>
  if h : ∀ a, (![0, 1024 * (t.val % 4)] : Fin 2 → ℕ) a ≤ (y a).val ∧ (y a).val < (![0, 1024 * (t.val % 4)] : Fin 2 → ℕ) a + S8x1024.size a then
    k0_pay2 (F := Ideal) (k0_pay7 (iblk m c 0 t) (iblk m c 1 t))
      (View.ld (S := S8x4096) prev (Rect.unit (s := S8x4096) (k0_off1 (grid0.coords t)) S8x1024.size (k0_off1_inb (grid0.coords t))))
      (Rect.unitLocal (s := S8x4096) (off := ![0, 1024 * (t.val % 4)]) (size := S8x1024.size) y h)
  else prev y

/-- The accumulators after point `t`, and after the point before it. -/
abbrev curRow (c : Dev nD) (t : Fin cfg0.N) : Vec Ideal S2048x1 .f32 := (outsAt0 m c t.val t.isLt).2.2.1
abbrev curCol (c : Dev nD) (t : Fin cfg0.N) : Vec Ideal S8x4096 .f32 := (outsAt0 m c t.val t.isLt).2.2.2
abbrev prevRow (c : Dev nD) (t : Fin cfg0.N) : Vec Ideal S2048x1 .f32 := (outsAt0 m c (t.val - 1) (Nat.lt_of_le_of_lt (Nat.sub_le _ _) t.isLt)).2.2.1
abbrev prevCol (c : Dev nD) (t : Fin cfg0.N) : Vec Ideal S8x4096 .f32 := (outsAt0 m c (t.val - 1) (Nat.lt_of_le_of_lt (Nat.sub_le _ _) t.isLt)).2.2.2

/-! ## First point of a batch -/

theorem rowA (c : Dev nD) (t : Fin cfg0.N) (h0 : t.val % 8 = 0) (h1 : t.val % 4 = 0) (h2 : ¬t.val % 4 = 3) (h3 : ¬t.val % 8 = 7) :
    curRow m c t = rowUpd m c t (k0_pay6 (F := Ideal)) := by
  show (outsAt0 m c t.val t.isLt).2.2.1 = _
  rw [outsAt0_A m c t h0 h1 h2 h3]
  dsimp only
  exact row_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)

theorem colA (c : Dev nD) (t : Fin cfg0.N) (h0 : t.val % 8 = 0) (h1 : t.val % 4 = 0) (h2 : ¬t.val % 4 = 3) (h3 : ¬t.val % 8 = 7) :
    curCol m c t = colUpd m c t (k0_pay5 (F := Ideal)) := by
  funext y
  show (outsAt0 m c t.val t.isLt).2.2.2 y = _
  rw [outsAt0_A m c t h0 h1 h2 h3]
  dsimp only
  exact col_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) ![0, 1024 * (t.val % 4)] (off_at t) y

/-! ## First column tile of the second row tile -/

theorem rowD (c : Dev nD) (t : Fin cfg0.N) (h0 : ¬t.val % 8 = 0) (h1 : t.val % 4 = 0) (h2 : ¬t.val % 4 = 3) (h3 : ¬t.val % 8 = 7) :
    curRow m c t = rowUpd m c t (k0_pay6 (F := Ideal)) := by
  show (outsAt0 m c t.val t.isLt).2.2.1 = _
  rw [outsAt0_D m c t h0 h1 h2 h3]
  dsimp only
  exact row_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (prevCol m c t)

theorem colD (c : Dev nD) (t : Fin cfg0.N) (h0 : ¬t.val % 8 = 0) (h1 : t.val % 4 = 0) (h2 : ¬t.val % 4 = 3) (h3 : ¬t.val % 8 = 7) :
    curCol m c t = colUpd m c t (prevCol m c t) := by
  funext y
  show (outsAt0 m c t.val t.isLt).2.2.2 y = _
  rw [outsAt0_D m c t h0 h1 h2 h3]
  dsimp only
  exact col_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (prevCol m c t) ![0, 1024 * (t.val % 4)] (off_at t) y

/-! ## Case B -/

theorem rowB (c : Dev nD) (t : Fin cfg0.N) (h0 : ¬t.val % 8 = 0) (h1 : ¬t.val % 4 = 0) (h2 : ¬t.val % 4 = 3) (h3 : ¬t.val % 8 = 7) :
    curRow m c t = rowUpd m c t (prevRow m c t) := by
  show (outsAt0 m c t.val t.isLt).2.2.1 = _
  rw [outsAt0_B m c t h0 h1 h2 h3]
  dsimp only
  exact row_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (prevRow m c t) (prevCol m c t)

theorem colB (c : Dev nD) (t : Fin cfg0.N) (h0 : ¬t.val % 8 = 0) (h1 : ¬t.val % 4 = 0) (h2 : ¬t.val % 4 = 3) (h3 : ¬t.val % 8 = 7) :
    curCol m c t = colUpd m c t (prevCol m c t) := by
  funext y
  show (outsAt0 m c t.val t.isLt).2.2.2 y = _
  rw [outsAt0_B m c t h0 h1 h2 h3]
  dsimp only
  exact col_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (prevRow m c t) (prevCol m c t) ![0, 1024 * (t.val % 4)] (off_at t) y

/-! ## Case C -/

theorem rowC (c : Dev nD) (t : Fin cfg0.N) (h0 : ¬t.val % 8 = 0) (h1 : ¬t.val % 4 = 0) (h2 : t.val % 4 = 3) (h3 : ¬t.val % 8 = 7) :
    curRow m c t = rowUpd m c t (prevRow m c t) := by
  show (outsAt0 m c t.val t.isLt).2.2.1 = _
  rw [outsAt0_C m c t h0 h1 h2 h3]
  dsimp only
  exact row_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t)

theorem colC (c : Dev nD) (t : Fin cfg0.N) (h0 : ¬t.val % 8 = 0) (h1 : ¬t.val % 4 = 0) (h2 : t.val % 4 = 3) (h3 : ¬t.val % 8 = 7) :
    curCol m c t = colUpd m c t (prevCol m c t) := by
  funext y
  show (outsAt0 m c t.val t.isLt).2.2.2 y = _
  rw [outsAt0_C m c t h0 h1 h2 h3]
  dsimp only
  exact col_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t) ![0, 1024 * (t.val % 4)] (off_at t) y

/-! ## Case E -/

theorem rowE (c : Dev nD) (t : Fin cfg0.N) (h0 : ¬t.val % 8 = 0) (h1 : ¬t.val % 4 = 0) (h2 : t.val % 4 = 3) (h3 : t.val % 8 = 7) :
    curRow m c t = rowUpd m c t (prevRow m c t) := by
  show (outsAt0 m c t.val t.isLt).2.2.1 = _
  rw [outsAt0_E m c t h0 h1 h2 h3]
  dsimp only
  exact row_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)

theorem colE (c : Dev nD) (t : Fin cfg0.N) (h0 : ¬t.val % 8 = 0) (h1 : ¬t.val % 4 = 0) (h2 : t.val % 4 = 3) (h3 : t.val % 8 = 7) :
    curCol m c t = colUpd m c t (prevCol m c t) := by
  funext y
  show (outsAt0 m c t.val t.isLt).2.2.2 y = _
  rw [outsAt0_E m c t h0 h1 h2 h3]
  dsimp only
  exact col_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t) ![0, 1024 * (t.val % 4)] (off_at t) y

/-- Case C stores the first output's block with the row accumulator as the point leaves it. -/
theorem outRowC (c : Dev nD) (t : Fin cfg0.N) (h0 : ¬t.val % 8 = 0) (h1 : ¬t.val % 4 = 0) (h2 : t.val % 4 = 3) (h3 : ¬t.val % 8 = 7) :
    (outsAt0 m c t.val t.isLt).1 = k0_pay3 (F := Ideal) (rowUpd m c t (prevRow m c t)) := by
  rw [outsAt0_C m c t h0 h1 h2 h3]
  dsimp only
  exact out2_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t)

/-- Case E stores the first output's block with the row accumulator as the point leaves it. -/
theorem outRowE (c : Dev nD) (t : Fin cfg0.N) (h0 : ¬t.val % 8 = 0) (h1 : ¬t.val % 4 = 0) (h2 : t.val % 4 = 3) (h3 : t.val % 8 = 7) :
    (outsAt0 m c t.val t.isLt).1 = k0_pay3 (F := Ideal) (rowUpd m c t (prevRow m c t)) := by
  rw [outsAt0_E m c t h0 h1 h2 h3]
  dsimp only
  exact out2_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)

/-- Case E stores the second output's block with row 0 of the column accumulator as the point leaves it. -/
theorem outColE (c : Dev nD) (t : Fin cfg0.N) (h0 : ¬t.val % 8 = 0) (h1 : ¬t.val % 4 = 0) (h2 : t.val % 4 = 3) (h3 : t.val % 8 = 7) :
    (outsAt0 m c t.val t.isLt).2.1
      = k0_pay4 (F := Ideal) (View.ld (S := S8x4096) (curCol m c t) (Rect.unit (s := S8x4096) ![0, 0] S1x4096.size inb_S8x4096_S1x4096_0_0)) := by
  show (outsAt0 m c t.val t.isLt).2.1 = k0_pay4 (F := Ideal) (View.ld (S := S8x4096) (outsAt0 m c t.val t.isLt).2.2.2 (Rect.unit (s := S8x4096) ![0, 0] S1x4096.size inb_S8x4096_S1x4096_0_0))
  rw [outsAt0_E m c t h0 h1 h2 h3]
  dsimp only
  exact out3_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)

end Cert.KernelIdeal.Sweep

end
-- ==== Proof.LibMinReduce.lean ====
/-
  Minimum reductions over one axis, on the extended reals.

  * `fold_min_top`: folding `min` from the top element over all of a finite type gives the infimum of the family
    (both are characterised by: `z` is below the result iff `z` is below every member).
  * `multiReduction_minimumf_single`: a vector min-reduction over one axis, read with exact values, is at each result
    index the fold of `min` from the accumulator's value over that axis's coordinates (the companion of the library's
    statement for the maximum).
  * `multiReduction_minimumf_inf`: with the accumulator `+∞` that fold is the infimum over the axis.
-/
import Idealize.ShloMosaic.PureOps.Ideal.Laws

noncomputable section

namespace Cert.LibMinReduce

open Idealize.ShloMosaic

/-- Folding `min` from `⊤` over a whole finite type is the infimum of the family. -/
theorem fold_min_top {ι : Type*} [Fintype ι] (f : ι → EReal) :
    (Finset.univ : Finset ι).fold min ⊤ f = ⨅ k, f k := by
  refine eq_of_forall_le_iff fun z => ?_
  rw [Finset.le_fold_min, le_iInf_iff]
  exact ⟨fun h k => h.2 k (Finset.mem_univ k), fun h => ⟨le_top, fun k _ => h k⟩⟩

/-- The f32 pattern of `+∞` is the top extended real. -/
theorem ofBits_inf : Ideal.ofBits .f32 0x7F800000#32 = (⊤ : EReal) := by
  simp [Ideal.ofBits, Ideal.ieee]

variable {φ : FTy}

/-- A float min-reduction over one axis, read with exact values: the fold of `min` from the accumulator's value over that
    axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the accumulator `+∞` (f32), a min-reduction over one axis is the infimum over that axis's coordinates. -/
theorem multiReduction_minimumf_inf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_single]
  show (Finset.univ : Finset (Fin (s.size a))).fold min (Ideal.ofBits .f32 0x7F800000#32) (src ∘ h.lift j) = _
  rw [ofBits_inf, fold_min_top]
  rfl

end Cert.LibMinReduce

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.BodyTile.lean ====
/-
  The kernel body's arithmetic, read at an index with exact values.

  One grid point holds 2048 points of the first cloud (three coordinates each) and 1024 points of the second cloud, stored
  transposed. The body forms the 2048 × 1024 tile of clamped squared distances between them, takes the tile's row minima
  (one per point of the first cloud) and its column minima (one per point of the second cloud), and folds each into a
  running minimum. Here each of these values is written at one index as a term of the extended reals: `tile` for an
  entry of the tile, an infimum over a row for a row minimum, an infimum over a column for a column minimum.
-/
import proofs.«120116_j62191126446336_2_alg».proof.Proof.Gen.KernelIdeal.Skeleton
import proofs.«120116_j62191126446336_2_alg».proof.Proof.Gen.KernelIdeal
import proofs.«120116_j62191126446336_2_alg».proof.Proof.Spec
import proofs.«120116_j62191126446336_2_alg».proof.Proof.LibMinReduce
import proofs.«120116_j62191126446336_2_alg».proof.Proof.LibColumnBroadcast
import proofs.«120116_j62191126446336_2_alg».proof.Proof.LibColumnCast
import Idealize.ShloMosaic.Lib.ValueLayout

noncomputable section

namespace Cert.KernelIdeal.Body

open Cert.KernelIdeal Cert.KernelIdeal.Gen Idealize.ShloMosaic Idealize.ShloMosaic.ValueIdx

/-- The clamped squared distance between row `r` of the point block and column `q` of the transposed point block: the
    three squared coordinate differences added in order from the float zero, clamped below at zero. -/
def tile (x0 : Vec Ideal S1x2048x3 .f32) (x1 : Vec Ideal S1x3x1024 .f32) (r : Fin 2048) (q : Fin 1024) : EReal :=
  max (((Cert.Chamfer.z32 + (x0 (ix3 0 r 0) - x1 (ix3 0 0 q)) * (x0 (ix3 0 r 0) - x1 (ix3 0 0 q)))
        + (x0 (ix3 0 r 1) - x1 (ix3 0 1 q)) * (x0 (ix3 0 r 1) - x1 (ix3 0 1 q)))
        + (x0 (ix3 0 r 2) - x1 (ix3 0 2 q)) * (x0 (ix3 0 r 2) - x1 (ix3 0 2 q))) Cert.Chamfer.z32

/-- Coordinate `o` of the point block, spread along the rows of the tile: at `(r, q)` it is coordinate `o` of point `r`
    (drop the leading unit axis, cut column `o`, repeat it across the columns). -/
theorem col_read (x0 : Vec Ideal S1x2048x3 .f32) (o : ℕ) (ho : o < 3) (hc : S1x2048x3.ShapeCasts S2048x3)
    (hs : S2048x3.Slices ![0, o] S2048x1) (hb : S2048x1.Broadcasts S2048x1024) (r : Fin 2048) (q : Fin 1024) :
    broadcastTo S2048x1024 (extractStridedSlice S2048x1 ![0, o] (shapeCast S2048x3 x0 hc) hs) hb (ix2 r q)
      = x0 (ix3 (0 : Fin 1) r (⟨o, ho⟩ : Fin 3)) :=
  (Cert.LibColumnBroadcast.broadcastTo_a1_ab_apply _ hb r q).trans
    ((slice2_axis1_apply o _ hs r (0 : Fin 1) (⟨o, ho⟩ : Fin 3) rfl).trans
      (shapeCast_1ab_ab_apply x0 hc r (⟨o, ho⟩ : Fin 3)))

/-- Coordinate `o` of the transposed point block, spread along the columns of the tile: at `(r, q)` it is coordinate `o`
    of point `q` (drop the leading unit axis, cut row `o`, repeat it down the rows). -/
theorem row_read (x1 : Vec Ideal S1x3x1024 .f32) (o : ℕ) (ho : o < 3) (hc : S1x3x1024.ShapeCasts S3x1024)
    (hs : S3x1024.Slices ![o, 0] S1x1024) (hb : S1x1024.Broadcasts S2048x1024) (r : Fin 2048) (q : Fin 1024) :
    broadcastTo S2048x1024 (extractStridedSlice S1x1024 ![o, 0] (shapeCast S3x1024 x1 hc) hs) hb (ix2 r q)
      = x1 (ix3 (0 : Fin 1) (⟨o, ho⟩ : Fin 3) q) :=
  (broadcastTo_1b_ab_apply _ hb r q).trans
    ((slice2_axis0_apply o _ hs (0 : Fin 1) q (⟨o, ho⟩ : Fin 3) rfl).trans
      (shapeCast_1ab_ab_apply x1 hc (⟨o, ho⟩ : Fin 3) q))

/-- The tile of clamped squared distances, entry by entry. -/
theorem pay7_apply (x0 : Vec Ideal S1x2048x3 .f32) (x1 : Vec Ideal S1x3x1024 .f32) (r : Fin 2048) (q : Fin 1024) :
    k0_pay7 (F := Ideal) x0 x1 (ix2 r q) = tile x0 x1 r q := by
  unfold k0_pay7 tile
  simp only [maximumf_apply, addf_apply, mulf_apply, subf_apply, broadcast_apply]
  rw [col_read x0 0 (by omega), col_read x0 1 (by omega), col_read x0 2 (by omega),
    row_read x1 0 (by omega), row_read x1 1 (by omega), row_read x1 2 (by omega)]
  rfl

/-- The tile's row minima as a column: entry `(r, 0)` is the least clamped squared distance from row `r` to any column. -/
theorem pay8_apply (x0 : Vec Ideal S1x2048x3 .f32) (x1 : Vec Ideal S1x3x1024 .f32) (r : Fin 2048) :
    k0_pay8 (F := Ideal) x0 x1 (ix2 r (0 : Fin 1)) = ⨅ q : Fin 1024, tile x0 x1 r q := by
  unfold k0_pay8
  refine (Cert.LibColumnCast.shapeCast_a_a1_apply _ _ r 0).trans ?_
  refine (Cert.LibMinReduce.multiReduction_minimumf_inf (k0_pay7 (F := Ideal) x0 x1) _ _ _ (ix1 r)).trans ?_
  refine iInf_congr fun (k : Fin 1024) => ?_
  refine (congrArg (k0_pay7 (F := Ideal) x0 x1) (?_ : _ = ix2 r k)).trans (pay7_apply x0 x1 r k)
  funext c
  refine Fin.ext ?_
  match c with
  | ⟨0, _⟩ => rfl
  | ⟨1, _⟩ => rfl

/-- The column accumulator's update: the minimum of its old content `v50` and the tile's column minima, the same in
    each of the eight rows. -/
theorem pay2_apply (v35 : Vec Ideal S2048x1024 .f32) (v50 : Vec Ideal S8x1024 .f32) (s : Fin 8) (q : Fin 1024) :
    k0_pay2 (F := Ideal) v35 v50 (ix2 s q) = min (v50 (ix2 s q)) (⨅ r : Fin 2048, v35 (ix2 r q)) := by
  unfold k0_pay2
  rw [shapeCast_self]
  refine congrArg (min (v50 (ix2 s q))) ?_
  refine (broadcastTo_1b_ab_apply _ _ s q).trans ?_
  rw [shapeCast_self]
  refine (shapeCast_a_1a_apply _ _ 0 q).trans ?_
  refine (Cert.LibMinReduce.multiReduction_minimumf_inf v35 _ _ _ (ix1 q)).trans ?_
  refine iInf_congr fun (k : Fin 2048) => ?_
  refine congrArg v35 (?_ : _ = ix2 k q)
  funext c
  refine Fin.ext ?_
  match c with
  | ⟨0, _⟩ => rfl
  | ⟨1, _⟩ => rfl

end Cert.KernelIdeal.Body

end
-- ==== Proof.SweepBlocks.lean ====
/-
  The two input blocks of a grid point, read off the arrays.

  At point `t = 8·b + 4·i + j` of the 8 × 2 × 4 grid the first cloud's window holds rows `2048·i … 2048·i + 2047` of batch
  `b` (all three coordinates) and the transposed second cloud's window holds columns `1024·j … 1024·j + 1023` of batch `b`
  (all three coordinates). A block's coordinate along an axis is the window's block index times the block's extent plus
  the coordinate inside the block; the block indices are decided once over the 64 points. So the tile of clamped squared
  distances the body forms from the two blocks is the distance table on that point's rows and columns.
-/
import proofs.«120116_j62191126446336_2_alg».proof.Proof.Sweep
import proofs.«120116_j62191126446336_2_alg».proof.Proof.BodyTile

noncomputable section

open Idealize.ShloMosaic Idealize.ShloMosaic.TcCoe Idealize.SL.Sem

namespace Cert.KernelIdeal.Sweep

open Cert.KernelIdeal Cert.KernelIdeal.Gen Idealize.ShloMosaic.ValueIdx

variable (m : (ℓ : Loc nD τ sig) → Buf (Elt Ideal) ℓ)

/-- Where the first cloud's window sits at point `t`: batch `t / 8`, row tile `t / 4 mod 2`, all three coordinates. -/
theorem index0 : ∀ t : Fin cfg0.N,
    win0_0.index t 0 = t.val / 8 ∧ win0_0.index t 1 = t.val / 4 % 2 ∧ win0_0.index t 2 = 0 :=
  (by decide +kernel : ∀ t : Fin grid0.N, _)

/-- Where the transposed second cloud's window sits at point `t`: batch `t / 8`, all three coordinates, column tile
    `t mod 4`. -/
theorem index1 : ∀ t : Fin cfg0.N,
    win0_1.index t 0 = t.val / 8 ∧ win0_1.index t 1 = 0 ∧ win0_1.index t 2 = t.val % 4 :=
  (by decide +kernel : ∀ t : Fin grid0.N, _)

/-- The first cloud's block at point `t`: its entry `(0, r, d)` is coordinate `d` of point `rowOf t r` in batch `bOf t`. -/
theorem iblk0_apply (c : Dev nD) (t : Fin cfg0.N) (r : Fin 2048) (d : Fin 3) :
    (iblk m c 0 t : S1x2048x3.Idx → EReal) (ix3 (0 : Fin 1) r d) = ptsX m c (ix3 (bOf t) (rowOf t r) d) := by
  obtain ⟨h0, h1, h2⟩ := index0 t
  unfold iblk
  rw [View.read_apply]
  show V m c main_arg0 _ = V m c main_arg0 _
  congr 1
  funext a
  apply Fin.ext
  match a with
  | ⟨0, _⟩ => show win0_0.index t 0 * 1 + 1 * 0 = t.val / 8; rw [h0]; omega
  | ⟨1, _⟩ => show win0_0.index t 1 * 2048 + 1 * r.val = 2048 * (t.val / 4 % 2) + r.val; rw [h1]; omega
  | ⟨2, _⟩ => show win0_0.index t 2 * 3 + 1 * d.val = d.val; rw [h2]; omega

/-- The transposed second cloud's block at point `t`: its entry `(0, d, q)` is coordinate `d` of point `colOf t q` in
    batch `bOf t`. -/
theorem iblk1_apply (c : Dev nD) (t : Fin cfg0.N) (d : Fin 3) (q : Fin 1024) :
    (iblk m c 1 t : S1x3x1024.Idx → EReal) (ix3 (0 : Fin 1) d q) = ptsYt m c (ix3 (bOf t) d (colOf t q)) := by
  obtain ⟨h0, h1, h2⟩ := index1 t
  unfold iblk
  rw [View.read_apply]
  show V m c main_v0 _ = V m c main_v0 _
  congr 1
  funext a
  apply Fin.ext
  match a with
  | ⟨0, _⟩ => show win0_1.index t 0 * 1 + 1 * 0 = t.val / 8; rw [h0]; omega
  | ⟨1, _⟩ => show win0_1.index t 1 * 3 + 1 * d.val = d.val; rw [h1]; omega
  | ⟨2, _⟩ => show win0_1.index t 2 * 1024 + 1 * q.val = 1024 * (t.val % 4) + q.val; rw [h2]; omega

/-- The tile the body forms from point `t`'s two blocks is the distance table restricted to that point's rows and
    columns. -/
theorem tile_iblk (c : Dev nD) (t : Fin cfg0.N) (r : Fin 2048) (q : Fin 1024) :
    Body.tile (iblk m c 0 t) (iblk m c 1 t) r q = dist m c (bOf t) (rowOf t r) (colOf t q) := by
  unfold Body.tile dist
  rw [iblk0_apply m c t r 0, iblk0_apply m c t r 1, iblk0_apply m c t r 2,
    iblk1_apply m c t 0 q, iblk1_apply m c t 1 q, iblk1_apply m c t 2 q]

end Cert.KernelIdeal.Sweep

end
-- ==== Proof.BodyValues.lean ====
/-
  The kernel body's simple stored values, read at an index with exact values.

  The body keeps two running minima. These are the values it stores that involve no arithmetic beyond a minimum:
  the initial fill of both accumulators with `+∞`, the update of the row accumulator (the minimum of its old content
  and the tile's row minima), and the two final copies that only add a leading unit axis.
-/
import proofs.«120116_j62191126446336_2_alg».proof.Proof.Gen.KernelIdeal.Skeleton
import proofs.«120116_j62191126446336_2_alg».proof.Proof.Gen.KernelIdeal
import proofs.«120116_j62191126446336_2_alg».proof.Proof.LibMinReduce
import Idealize.ShloMosaic.Lib.ValueLayout

noncomputable section

namespace Cert.KernelIdeal.Body

open Cert.KernelIdeal Cert.KernelIdeal.Gen Idealize.ShloMosaic Idealize.ShloMosaic.ValueIdx

/-- The initial content of the column accumulator is `+∞` everywhere. -/
theorem pay5_apply (y : S8x4096.Idx) : k0_pay5 (F := Ideal) y = (⊤ : EReal) := by
  unfold k0_pay5
  rw [shapeCast_self]
  exact Cert.LibMinReduce.ofBits_inf

/-- The initial content of the row accumulator is `+∞` everywhere. -/
theorem pay6_apply (y : S2048x1.Idx) : k0_pay6 (F := Ideal) y = (⊤ : EReal) := by
  unfold k0_pay6
  rw [shapeCast_self]
  exact Cert.LibMinReduce.ofBits_inf

/-- The row accumulator's update: the minimum of its old content `v38` and the new column `v37`, entry by entry. -/
theorem pay1_apply (v37 v38 : Vec Ideal S2048x1 .f32) (y : S2048x1.Idx) :
    k0_pay1 (F := Ideal) v37 v38 y = min (v38 y) (v37 y) := by
  unfold k0_pay1
  rw [shapeCast_self]
  rfl

/-- The row accumulator copied out under a leading unit axis: entry `(0, r, 0)` is the accumulator's entry `(r, 0)`. -/
theorem pay3_apply (v64 : Vec Ideal S2048x1 .f32) (r : Fin 2048) :
    k0_pay3 (F := Ideal) v64 (ix3 (0 : Fin 1) r (0 : Fin 1)) = v64 (ix2 r (0 : Fin 1)) :=
  shapeCast_ab_1ab_apply v64 _ 0 r 0

/-- The column accumulator's first row copied out under a leading unit axis: entry `(0, 0, q)` is the row's entry
    `(0, q)`. -/
theorem pay4_apply (v64 : Vec Ideal S1x4096 .f32) (q : Fin 4096) :
    k0_pay4 (F := Ideal) v64 (ix3 (0 : Fin 1) (0 : Fin 1) q) = v64 (ix2 (0 : Fin 1) q) :=
  shapeCast_ab_1ab_apply v64 _ 0 0 q

end Cert.KernelIdeal.Body

end
-- ==== Proof.LibInfSplit.lean ====
/-
  Infima of an extended-real family over an initial segment of `Fin N`.

  The infimum over the indices below `K` starts at `⊤` (empty segment), becomes the whole infimum once `K` reaches
  `N`, and grows by blocks: the infimum below `K + W` is the minimum of the infimum below `K` and the infimum over
  the block of `W` indices starting at `K`.
-/
import Mathlib.Data.EReal.Basic

namespace Cert.LibInfSplit

/-- The infimum over the empty initial segment is `⊤`. -/
theorem iInf_lt_zero {N : ℕ} (f : Fin N → EReal) :
    (⨅ (k : Fin N) (_ : k.val < 0), f k) = ⊤ := by
  simp

/-- An initial segment that covers every index gives the full infimum. -/
theorem iInf_lt_all {N K : ℕ} (f : Fin N → EReal) (hK : N ≤ K) :
    (⨅ (k : Fin N) (_ : k.val < K), f k) = ⨅ k, f k := by
  refine iInf_congr fun k => ?_
  have hk : k.val < K := lt_of_lt_of_le k.isLt hK
  simp [hk]

/-- Extending an initial segment by a block: the infimum below `K + W` is the minimum of the infimum below `K` and the
    infimum over the `W` indices `K, K + 1, …, K + W - 1`. -/
theorem iInf_lt_add {N : ℕ} (f : Fin N → EReal) (K W : ℕ) (h : K + W ≤ N) :
    min (⨅ (k : Fin N) (_ : k.val < K), f k)
        (⨅ q : Fin W, f ⟨K + q.val, by have := q.isLt; omega⟩)
      = ⨅ (k : Fin N) (_ : k.val < K + W), f k := by
  refine eq_of_forall_le_iff fun c => ?_
  rw [le_min_iff, le_iInf₂_iff, le_iInf_iff, le_iInf₂_iff]
  constructor
  · rintro ⟨h1, h2⟩ k hk
    by_cases hkK : k.val < K
    · exact h1 k hkK
    · have hq : k.val - K < W := by omega
      have h3 := h2 ⟨k.val - K, hq⟩
      have e : (⟨K + (k.val - K), by omega⟩ : Fin N) = k := Fin.ext (by simp only; omega)
      rw [e] at h3
      exact h3
  · intro hh
    exact ⟨fun k hk => hh k (by omega), fun q => hh _ (by have := q.isLt; simp only; omega)⟩

end Cert.LibInfSplit
-- ==== Proof.SweepSteps.lean ====
/-
  The sweep's invariant and its consequence for the two outputs.

  Within a batch the kernel visits its 2 × 4 tiles row tile by row tile, column tile by column tile. After the point
  `t` (row tile `i = t/4 mod 2`, column tile `j = t mod 4`):

  * the row accumulator holds, for each row of the current row tile, the minimum of the distance table over the columns
    `0 … 1024·(j+1) − 1` seen so far in this row sweep;
  * the column accumulator holds, in each of its eight rows, for each column `k` the minimum over the rows seen so far:
    all rows of the earlier row tile, and the current row tile's rows as well once `k`'s column tile has been visited
    (`k / 1024 ≤ j`).

  Both follow by induction along the grid from the two update rules (minimum with the tile's row minima; on the tile's
  columns, minimum with the tile's column minima), a minimum over an initial segment extended by a block being the
  minimum over the longer segment. At the closing points the segments are everything, which is what the stored output
  blocks then hold.
-/
import proofs.«120116_j62191126446336_2_alg».proof.Proof.SweepAt
import proofs.«120116_j62191126446336_2_alg».proof.Proof.SweepBlocks
import proofs.«120116_j62191126446336_2_alg».proof.Proof.BodyValues
import proofs.«120116_j62191126446336_2_alg».proof.Proof.BodyTile
import proofs.«120116_j62191126446336_2_alg».proof.Proof.LibInfSplit

set_option maxRecDepth 16384

noncomputable section

open Idealize.ShloMosaic Idealize.ShloMosaic.TcCoe Idealize.SL.Sem

namespace Cert.KernelIdeal.Sweep

open Cert.KernelIdeal Cert.KernelIdeal.Gen Cert.KernelIdeal.Body Cert.LibInfSplit Idealize.ShloMosaic.ValueIdx

variable (m : (ℓ : Loc nD τ sig) → Buf (Elt Ideal) ℓ)

/-- After point `t` the row accumulator holds each row's minimum over the columns of the column tiles `0 … t mod 4`. -/
def RowInv (c : Dev nD) (t : Fin cfg0.N) (s0 : Vec Ideal S2048x1 .f32) : Prop :=
  ∀ r : Fin 2048, s0 (ix2 r (0 : Fin 1))
    = ⨅ (k : Fin 4096) (_ : k.val < 1024 * (t.val % 4 + 1)), dist m c (bOf t) (rowOf t r) k

/-- How many rows of the batch have met column `k` before point `t`, and after it. -/
def rowsBefore (t k : ℕ) : ℕ := 2048 * (t / 4 % 2) + (if k / 1024 < t % 4 then 2048 else 0)
def rowsAfter (t k : ℕ) : ℕ := 2048 * (t / 4 % 2) + (if k / 1024 ≤ t % 4 then 2048 else 0)

/-- After point `t` the column accumulator holds, in every one of its rows, each column's minimum over the rows that
    have met it. -/
def ColInv (c : Dev nD) (t : Fin cfg0.N) (s1 : Vec Ideal S8x4096 .f32) : Prop :=
  ∀ (s : Fin 8) (k : Fin 4096), s1 (ix2 s k)
    = ⨅ (n : Fin 4096) (_ : n.val < rowsAfter t.val k.val), dist m c (bOf t) n k

/-- The row update extends the row minima by this tile's 1024 columns. -/
theorem row_step (c : Dev nD) (t : Fin cfg0.N) (prev : Vec Ideal S2048x1 .f32)
    (hprev : ∀ r : Fin 2048, prev (ix2 r (0 : Fin 1))
      = ⨅ (k : Fin 4096) (_ : k.val < 1024 * (t.val % 4)), dist m c (bOf t) (rowOf t r) k) :
    RowInv m c t (rowUpd m c t prev) := by
  intro r
  have hj : t.val % 4 < 4 := Nat.mod_lt _ (by norm_num)
  have key : min (⨅ (k : Fin 4096) (_ : k.val < 1024 * (t.val % 4)), dist m c (bOf t) (rowOf t r) k)
        (⨅ q : Fin 1024, dist m c (bOf t) (rowOf t r) ⟨1024 * (t.val % 4) + q.val, by have := q.isLt; omega⟩)
      = ⨅ (k : Fin 4096) (_ : k.val < 1024 * (t.val % 4) + 1024), dist m c (bOf t) (rowOf t r) k :=
    iInf_lt_add (fun k => dist m c (bOf t) (rowOf t r) k) (1024 * (t.val % 4)) 1024 (by omega)
  have e : 1024 * (t.val % 4) + 1024 = 1024 * (t.val % 4 + 1) := by omega
  rw [e] at key
  unfold rowUpd
  rw [pay1_apply, pay8_apply, hprev r]
  have htile : ∀ q : Fin 1024, tile (iblk m c 0 t) (iblk m c 1 t) r q
      = dist m c (bOf t) (rowOf t r) ⟨1024 * (t.val % 4) + q.val, by have := q.isLt; omega⟩ :=
    fun q => tile_iblk m c t r q
  rw [iInf_congr htile]
  exact key

/-- The column update extends, on this tile's columns, the column minima by this tile's 2048 rows, and leaves the
    other columns as they were. -/
theorem col_step (c : Dev nD) (t : Fin cfg0.N) (prev : Vec Ideal S8x4096 .f32)
    (hprev : ∀ (s : Fin 8) (k : Fin 4096), prev (ix2 s k)
      = ⨅ (n : Fin 4096) (_ : n.val < rowsBefore t.val k.val), dist m c (bOf t) n k) :
    ColInv m c t (colUpd m c t prev) := by
  intro s k
  have hj : t.val % 4 < 4 := Nat.mod_lt _ (by norm_num)
  have hi : t.val / 4 % 2 < 2 := Nat.mod_lt _ (by norm_num)
  have hk : k.val < 4096 := k.isLt
  have hs : s.val < 8 := s.isLt
  unfold colUpd
  by_cases hin : k.val / 1024 = t.val % 4
  · have hcond : ∀ a, (![0, 1024 * (t.val % 4)] : Fin 2 → ℕ) a ≤ ((ix2 s k : S8x4096.Idx) a).val
        ∧ ((ix2 s k : S8x4096.Idx) a).val < (![0, 1024 * (t.val % 4)] : Fin 2 → ℕ) a + S8x1024.size a := by
      intro a
      match a with
      | ⟨0, _⟩ => exact ⟨Nat.zero_le _, by show s.val < 0 + 8; omega⟩
      | ⟨1, _⟩ => show 1024 * (t.val % 4) ≤ k.val ∧ k.val < 1024 * (t.val % 4) + 1024; omega
    rw [dif_pos hcond]
    have hq : k.val - 1024 * (t.val % 4) < 1024 := by omega
    have hloc : Rect.unitLocal (s := S8x4096) (off := ![0, 1024 * (t.val % 4)]) (size := S8x1024.size) (ix2 s k) hcond
        = (ix2 s (⟨k.val - 1024 * (t.val % 4), hq⟩ : Fin 1024) : S8x1024.Idx) := by
      funext a
      apply Fin.ext
      match a with
      | ⟨0, _⟩ => show s.val - 0 = s.val; omega
      | ⟨1, _⟩ => rfl
    rw [hloc, pay2_apply]
    have hld : View.ld (S := S8x4096) prev (Rect.unit (s := S8x4096) (k0_off1 (grid0.coords t)) S8x1024.size (k0_off1_inb (grid0.coords t)))
        (ix2 s (⟨k.val - 1024 * (t.val % 4), hq⟩ : Fin 1024)) = prev (ix2 s k) := by
      show prev _ = prev _
      congr 1
      funext a
      apply Fin.ext
      match a with
      | ⟨0, _⟩ =>
        show k0_off1 (grid0.coords t) 0 + 1 * s.val = s.val
        rw [off_at]; show 0 + 1 * s.val = s.val; omega
      | ⟨1, _⟩ =>
        show k0_off1 (grid0.coords t) 1 + 1 * (k.val - 1024 * (t.val % 4)) = k.val
        rw [off_at]; show 1024 * (t.val % 4) + 1 * (k.val - 1024 * (t.val % 4)) = k.val; omega
    have hcol : colOf t (⟨k.val - 1024 * (t.val % 4), hq⟩ : Fin 1024) = k := Fin.ext (by show 1024 * (t.val % 4) + (k.val - 1024 * (t.val % 4)) = k.val; omega)
    have htile : ∀ r : Fin 2048, k0_pay7 (F := Ideal) (iblk m c 0 t) (iblk m c 1 t) (ix2 r (⟨k.val - 1024 * (t.val % 4), hq⟩ : Fin 1024))
        = dist m c (bOf t) (rowOf t r) k := fun r => by
      rw [pay7_apply, tile_iblk, hcol]
    rw [hld, hprev s k, iInf_congr htile]
    have hb : rowsBefore t.val k.val = 2048 * (t.val / 4 % 2) := by
      unfold rowsBefore; rw [if_neg (by omega)]; rfl
    have ha : rowsAfter t.val k.val = 2048 * (t.val / 4 % 2) + 2048 := by
      unfold rowsAfter; rw [if_pos (by omega)]
    rw [hb, ha]
    exact iInf_lt_add (fun n => dist m c (bOf t) n k) (2048 * (t.val / 4 % 2)) 2048 (by omega)
  · have hcond : ¬ ∀ a, (![0, 1024 * (t.val % 4)] : Fin 2 → ℕ) a ≤ ((ix2 s k : S8x4096.Idx) a).val
        ∧ ((ix2 s k : S8x4096.Idx) a).val < (![0, 1024 * (t.val % 4)] : Fin 2 → ℕ) a + S8x1024.size a := fun h => by
      have h1 : 1024 * (t.val % 4) ≤ k.val ∧ k.val < 1024 * (t.val % 4) + 1024 := h 1
      omega
    rw [dif_neg hcond, hprev s k]
    have hba : rowsBefore t.val k.val = rowsAfter t.val k.val := by
      unfold rowsBefore rowsAfter
      split_ifs <;> omega
    rw [hba]

/-- A row accumulator carried from the point before (same row sweep): what it held then, restated at this point. -/
theorem row_carry (c : Dev nD) (t : Fin cfg0.N) (hp : t.val - 1 < cfg0.N) (h : ¬t.val % 4 = 0)
    (prev : Vec Ideal S2048x1 .f32) (ih : RowInv m c ⟨t.val - 1, hp⟩ prev) (r : Fin 2048) :
    prev (ix2 r (0 : Fin 1)) = ⨅ (k : Fin 4096) (_ : k.val < 1024 * (t.val % 4)), dist m c (bOf t) (rowOf t r) k := by
  have hb : bOf (⟨t.val - 1, hp⟩ : Fin cfg0.N) = bOf t := Fin.ext (by show (t.val - 1) / 8 = t.val / 8; omega)
  have hr : rowOf (⟨t.val - 1, hp⟩ : Fin cfg0.N) r = rowOf t r :=
    Fin.ext (by show 2048 * ((t.val - 1) / 4 % 2) + r.val = 2048 * (t.val / 4 % 2) + r.val; omega)
  have hK : 1024 * ((t.val - 1) % 4 + 1) = 1024 * (t.val % 4) := by omega
  have := ih r
  rw [hb, hr] at this
  rw [this]
  show (⨅ (k : Fin 4096) (_ : k.val < 1024 * ((t.val - 1) % 4 + 1)), _) = _
  rw [hK]

/-- A column accumulator carried from the point before (same batch): what it held then, restated at this point. -/
theorem col_carry (c : Dev nD) (t : Fin cfg0.N) (hp : t.val - 1 < cfg0.N) (h : ¬t.val % 8 = 0)
    (prev : Vec Ideal S8x4096 .f32) (ih : ColInv m c ⟨t.val - 1, hp⟩ prev) (s : Fin 8) (k : Fin 4096) :
    prev (ix2 s k) = ⨅ (n : Fin 4096) (_ : n.val < rowsBefore t.val k.val), dist m c (bOf t) n k := by
  have hb : bOf (⟨t.val - 1, hp⟩ : Fin cfg0.N) = bOf t := Fin.ext (by show (t.val - 1) / 8 = t.val / 8; omega)
  have hk : k.val < 4096 := k.isLt
  have hK : rowsAfter (t.val - 1) k.val = rowsBefore t.val k.val := by
    unfold rowsAfter rowsBefore
    split_ifs <;> omega
  have := ih s k
  rw [hb] at this
  rw [this]
  show (⨅ (n : Fin 4096) (_ : n.val < rowsAfter (t.val - 1) k.val), _) = _
  rw [hK]

/-- THE INVARIANT, by induction along the grid. -/
theorem scratch_inv (c : Dev nD) (n : ℕ) :
    ∀ hn : n < cfg0.N, RowInv m c ⟨n, hn⟩ (curRow m c ⟨n, hn⟩) ∧ ColInv m c ⟨n, hn⟩ (curCol m c ⟨n, hn⟩) := by
  induction n using Nat.strong_induction_on with
  | _ n ih =>
    intro hn
    have hN : cfg0.N = 64 := N_0
    have fresh_row : ∀ t : Fin cfg0.N, t.val % 4 = 0 → ∀ r : Fin 2048, k0_pay6 (F := Ideal) (ix2 r (0 : Fin 1))
        = ⨅ (k : Fin 4096) (_ : k.val < 1024 * (t.val % 4)), dist m c (bOf t) (rowOf t r) k := fun t ht r => by
      rw [pay6_apply, show 1024 * (t.val % 4) = 0 from by omega, iInf_lt_zero]
    by_cases h0 : n % 8 = 0
    · have h1 : n % 4 = 0 := by omega
      have h2 : ¬n % 4 = 3 := by omega
      have h3 : ¬n % 8 = 7 := by omega
      refine ⟨?_, ?_⟩
      · rw [rowA m c ⟨n, hn⟩ h0 h1 h2 h3]
        exact row_step m c ⟨n, hn⟩ _ (fresh_row ⟨n, hn⟩ h1)
      · rw [colA m c ⟨n, hn⟩ h0 h1 h2 h3]
        refine col_step m c ⟨n, hn⟩ _ fun s k => ?_
        have hk : k.val < 4096 := k.isLt
        rw [pay5_apply, show rowsBefore (⟨n, hn⟩ : Fin cfg0.N).val k.val = 0 from by
          show 2048 * (n / 4 % 2) + (if k.val / 1024 < n % 4 then 2048 else 0) = 0
          rw [if_neg (by omega)]; omega, iInf_lt_zero]
    · have hp : n - 1 < cfg0.N := by omega
      obtain ⟨ihR, ihC⟩ := ih (n - 1) (by omega) hp
      by_cases h1 : n % 4 = 0
      · have h2 : ¬n % 4 = 3 := by omega
        have h3 : ¬n % 8 = 7 := by omega
        refine ⟨?_, ?_⟩
        · rw [rowD m c ⟨n, hn⟩ h0 h1 h2 h3]
          exact row_step m c ⟨n, hn⟩ _ (fresh_row ⟨n, hn⟩ h1)
        · rw [colD m c ⟨n, hn⟩ h0 h1 h2 h3]
          exact col_step m c ⟨n, hn⟩ _ (col_carry m c ⟨n, hn⟩ hp h0 _ ihC)
      · by_cases h2 : n % 4 = 3
        · by_cases h3 : n % 8 = 7
          · refine ⟨?_, ?_⟩
            · rw [rowE m c ⟨n, hn⟩ h0 h1 h2 h3]
              exact row_step m c ⟨n, hn⟩ _ (row_carry m c ⟨n, hn⟩ hp h1 _ ihR)
            · rw [colE m c ⟨n, hn⟩ h0 h1 h2 h3]
              exact col_step m c ⟨n, hn⟩ _ (col_carry m c ⟨n, hn⟩ hp h0 _ ihC)
          · refine ⟨?_, ?_⟩
            · rw [rowC m c ⟨n, hn⟩ h0 h1 h2 h3]
              exact row_step m c ⟨n, hn⟩ _ (row_carry m c ⟨n, hn⟩ hp h1 _ ihR)
            · rw [colC m c ⟨n, hn⟩ h0 h1 h2 h3]
              exact col_step m c ⟨n, hn⟩ _ (col_carry m c ⟨n, hn⟩ hp h0 _ ihC)
        · have h3 : ¬n % 8 = 7 := by omega
          refine ⟨?_, ?_⟩
          · rw [rowB m c ⟨n, hn⟩ h0 h1 h2 h3]
            exact row_step m c ⟨n, hn⟩ _ (row_carry m c ⟨n, hn⟩ hp h1 _ ihR)
          · rw [colB m c ⟨n, hn⟩ h0 h1 h2 h3]
            exact col_step m c ⟨n, hn⟩ _ (col_carry m c ⟨n, hn⟩ hp h0 _ ihC)

/-- At the close of a row sweep the first output's block holds the finished row minima. -/
theorem rowsDone (c : Dev nD) : RowsDone m c := by
  intro t h r
  have hN : cfg0.N = 64 := N_0
  have h0 : ¬t.val % 8 = 0 := by omega
  have h1 : ¬t.val % 4 = 0 := by omega
  have hR : RowInv m c t (curRow m c t) := (scratch_inv m c t.val t.isLt).1
  have hall : curRow m c t (ix2 r (0 : Fin 1)) = ⨅ k : Fin 4096, dist m c (bOf t) (rowOf t r) k := by
    rw [hR r, show 1024 * (t.val % 4 + 1) = 4096 from by omega]
    exact iInf_lt_all _ (le_refl _)
  by_cases h3 : t.val % 8 = 7
  · rw [outRowE m c t h0 h1 h h3, pay3_apply, ← rowE m c t h0 h1 h h3]
    exact hall
  · rw [outRowC m c t h0 h1 h h3, pay3_apply, ← rowC m c t h0 h1 h h3]
    exact hall

/-- At the close of a batch the second output's block holds the finished column minima. -/
theorem colsDone (c : Dev nD) : ColsDone m c := by
  intro t h k
  have hN : cfg0.N = 64 := N_0
  have hk : k.val < 4096 := k.isLt
  have h0 : ¬t.val % 8 = 0 := by omega
  have h1 : ¬t.val % 4 = 0 := by omega
  have h2 : t.val % 4 = 3 := by omega
  have hC : ColInv m c t (curCol m c t) := (scratch_inv m c t.val t.isLt).2
  rw [outColE m c t h0 h1 h2 h, pay4_apply]
  show curCol m c t _ = _
  have hidx : (Rect.unit (s := S8x4096) ![0, 0] S1x4096.size inb_S8x4096_S1x4096_0_0).idx (ix2 (0 : Fin 1) k) = ix2 (0 : Fin 8) k := by
    funext a
    apply Fin.ext
    match a with
    | ⟨0, _⟩ => rfl
    | ⟨1, _⟩ => show 0 + 1 * k.val = k.val; omega
  rw [hidx, hC 0 k, show rowsAfter t.val k.val = 4096 from by
    unfold rowsAfter; rw [if_pos (by omega)]; omega]
  exact iInf_lt_all _ (le_refl _)

end Cert.KernelIdeal.Sweep

end
-- ==== Proof.FinalArrays.lean ====
/-
  From blocks to arrays. The first result array [8, 4096, 1] is written back one block of 2048 rows at a time, after the
  points that close a row sweep (t ≡ 3 mod 4): block (b, i, 0) after point t = 8b + 4i + 3. The second result array
  [8, 1, 4096] is written back one batch row at a time, after the last point of each batch (t ≡ 7 mod 8): block
  (b, 0, 0) after point t = 8b + 7. If at those points the staging buffers hold the nearest-neighbour distances of the
  block's rows (columns), the two arrays end holding the nearest-neighbour distances everywhere: every index of each
  array lies in exactly such a block.
-/
import proofs.«120116_j62191126446336_2_alg».proof.Proof.Sweep
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx

variable (m : (ℓ : Loc nD τ sig) → Buf (Elt Ideal) ℓ)

/-- The block indices of the two result windows at point `t`: (t / 8, t / 4 mod 2, 0) and (t / 8, 0, 0). -/
theorem idx_rows : ∀ t : Fin cfg0.N, win0_2.index t 0 = t.val / 8 ∧ win0_2.index t 1 = t.val / 4 % 2 ∧ win0_2.index t 2 = 0 :=
  (by decide +kernel : ∀ t : Fin grid0.N, win0_2.index t 0 = t.val / 8 ∧ win0_2.index t 1 = t.val / 4 % 2 ∧ win0_2.index t 2 = 0)

theorem idx_cols : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- What a closing point of a row sweep writes back is its block of the nearest-neighbour array. -/
theorem flushed2_eq (c : Dev nD) (h : Sweep.RowsDone m c) (t : Fin cfg0.N) (hf : (cfg0.win 2).flush t = true) :
    (dats m 0 c).flushed 2 t = ((cfg0.win 2).blk t).view.read (Elt Ideal) (Sweep.nearest1 m c) := by
  have h3 : t.val % 4 = 3 := (flush0_2 t).mp hf
  obtain ⟨e0, e1, e2⟩ := idx_rows t
  show (cfg0.win 2).cut (grid0.coords t) ((dats m 0 c).after 2 t) = _
  rw [after0_2]
  funext j
  have key : ∀ (y : S1x2048x1.Idx), (outsAt0 m c t.val t.isLt).1 y
      = Sweep.nearest1 m c (ix3 (Sweep.bOf t) (Sweep.rowOf t (y 1)) 0) := by
    intro y
    have ey : y = ix3 (0 : Fin 1) (y 1) (0 : Fin 1) := by
      funext a
      match a with
      | ⟨0, _⟩ => exact Fin.ext (Nat.lt_one_iff.mp (y 0).isLt)
      | ⟨1, _⟩ => rfl
      | ⟨2, _⟩ => exact Fin.ext (Nat.lt_one_iff.mp (y 2).isLt)
    refine (congrArg (outsAt0 m c t.val t.isLt).1 ey).trans ((h t h3 (y 1)).trans ?_)
    rfl
  show (outsAt0 m c t.val t.isLt).1 ((cfg0.win 2).xinj (grid0.coords t) j)
    = Sweep.nearest1 m c (((cfg0.win 2).blk t).view.emb j)
  refine (key _).trans (congrArg (Sweep.nearest1 m c) (funext fun a => Fin.ext ?_))
  have j0 : (j 0).val < 1 := (j 0).isLt
  have j1 : (j 1).val < 2048 := (j 1).isLt
  have j2 : (j 2).val < 1 := (j 2).isLt
  match a with
  | ⟨0, _⟩ => show t.val / 8 = win0_2.index t 0 * 1 + 1 * (j 0).val; rw [e0]; omega
  | ⟨1, _⟩ => show 2048 * (t.val / 4 % 2) + (j 1).val = win0_2.index t 1 * 2048 + 1 * (j 1).val; rw [e1]; omega
  | ⟨2, _⟩ => show 0 = win0_2.index t 2 * 1 + 1 * (j 2).val; rw [e2]; omega

/-- What the last point of a batch writes back is its block of the second nearest-neighbour array. -/
theorem flushed3_eq (c : Dev nD) (h : Sweep.ColsDone m c) (t : Fin cfg0.N) (hf : (cfg0.win 3).flush t = true) :
    (dats m 0 c).flushed 3 t = ((cfg0.win 3).blk t).view.read (Elt Ideal) (Sweep.nearest2 m c) := by
  have h7 : t.val % 8 = 7 := (flush0_3 t).mp hf
  obtain ⟨e0, e1, e2⟩ := idx_cols t
  show (cfg0.win 3).cut (grid0.coords t) ((dats m 0 c).after 3 t) = _
  rw [after0_3]
  funext j
  have key : ∀ (y : S1x1x4096.Idx), (outsAt0 m c t.val t.isLt).2.1 y
      = Sweep.nearest2 m c (ix3 (Sweep.bOf t) 0 (y 2)) := by
    intro y
    have ey : y = ix3 (0 : Fin 1) (0 : Fin 1) (y 2) := by
      funext a
      match a with
      | ⟨0, _⟩ => exact Fin.ext (Nat.lt_one_iff.mp (y 0).isLt)
      | ⟨1, _⟩ => exact Fin.ext (Nat.lt_one_iff.mp (y 1).isLt)
      | ⟨2, _⟩ => rfl
    refine (congrArg (outsAt0 m c t.val t.isLt).2.1 ey).trans ((h t h7 (y 2)).trans ?_)
    rfl
  show (outsAt0 m c t.val t.isLt).2.1 ((cfg0.win 3).xinj (grid0.coords t) j)
    = Sweep.nearest2 m c (((cfg0.win 3).blk t).view.emb j)
  refine (key _).trans (congrArg (Sweep.nearest2 m c) (funext fun a => Fin.ext ?_))
  have j0 : (j 0).val < 1 := (j 0).isLt
  have j1 : (j 1).val < 1 := (j 1).isLt
  have j2 : (j 2).val < 4096 := (j 2).isLt
  match a with
  | ⟨0, _⟩ => show t.val / 8 = win0_3.index t 0 * 1 + 1 * (j 0).val; rw [e0]; omega
  | ⟨1, _⟩ => show 0 = win0_3.index t 1 * 1 + 1 * (j 1).val; rw [e1]; omega
  | ⟨2, _⟩ => show (j 2).val = win0_3.index t 2 * 4096 + 1 * (j 2).val; rw [e2]; omega

/-- An index of the first result array is in point `t`'s block iff each coordinate is in the block's range. -/
theorem mem_blk2 (t : Fin cfg0.N) (i : S8x4096x1.Idx) :
    i ∈ ((cfg0.win 2).blk t).view.set ↔ ∀ a : Fin 3, win0_2.index t a * S1x2048x1.size a ≤ (i a).val ∧ (i a).val < win0_2.index t a * S1x2048x1.size a + S1x2048x1.size a := by
  show i ∈ ((View.whole main_v1_0).slice (win0_2.rect t)).set ↔ _
  rw [View.set_slice_whole, Rect.mem_set_unit]
  exact Iff.rfl

/-- The same for the second result array. -/
theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Row `n` of batch `b` lies in the block written back after point 8b + 4(n / 2048) + 3. -/
theorem cover2 (i : S8x4096x1.Idx) : ∃ t : Fin cfg0.N, (cfg0.win 2).flush t = true ∧ i ∈ ((cfg0.win 2).blk t).view.set := by
  have i0 : (i 0).val < 8 := (i 0).isLt
  have i1 : (i 1).val < 4096 := (i 1).isLt
  have i2 : (i 2).val < 1 := (i 2).isLt
  have hN : cfg0.N = 64 := N_0
  let t : Fin cfg0.N := ⟨8 * (i 0).val + 4 * ((i 1).val / 2048) + 3, by omega⟩
  have tv : t.val = 8 * (i 0).val + 4 * ((i 1).val / 2048) + 3 := rfl
  obtain ⟨e0, e1, e2⟩ := idx_rows t
  refine ⟨t, (flush0_2 t).mpr (by omega), ?_⟩
  rw [mem_blk2]
  intro a
  match a with
  | ⟨0, _⟩ => show win0_2.index t 0 * 1 ≤ (i 0).val ∧ (i 0).val < win0_2.index t 0 * 1 + 1; rw [e0]; omega
  | ⟨1, _⟩ => show win0_2.index t 1 * 2048 ≤ (i 1).val ∧ (i 1).val < win0_2.index t 1 * 2048 + 2048; rw [e1]; omega
  | ⟨2, _⟩ => show win0_2.index t 2 * 1 ≤ (i 2).val ∧ (i 2).val < win0_2.index t 2 * 1 + 1; rw [e2]; omega

/-- Every index of batch `b` of the second array lies in the block written back after point 8b + 7. -/
theorem cover3 (i : S8x1x4096.Idx) : ∃ t : Fin cfg0.N, (cfg0.win 3).flush t = true ∧ i ∈ ((cfg0.win 3).blk t).view.set := by
  have i0 : (i 0).val < 8 := (i 0).isLt
  have i1 : (i 1).val < 1 := (i 1).isLt
  have i2 : (i 2).val < 4096 := (i 2).isLt
  have hN : cfg0.N = 64 := N_0
  let t : Fin cfg0.N := ⟨8 * (i 0).val + 7, by omega⟩
  have tv : t.val = 8 * (i 0).val + 7 := rfl
  obtain ⟨e0, e1, e2⟩ := idx_cols t
  refine ⟨t, (flush0_3 t).mpr (by omega), ?_⟩
  rw [mem_blk3]
  intro a
  match a with
  | ⟨0, _⟩ => show win0_3.index t 0 * 1 ≤ (i 0).val ∧ (i 0).val < win0_3.index t 0 * 1 + 1; rw [e0]; omega
  | ⟨1, _⟩ => show win0_3.index t 1 * 1 ≤ (i 1).val ∧ (i 1).val < win0_3.index t 1 * 1 + 1; rw [e1]; omega
  | ⟨2, _⟩ => show win0_3.index t 2 * 4096 ≤ (i 2).val ∧ (i 2).val < win0_3.index t 2 * 4096 + 4096; rw [e2]; omega

/-- The first result array ends holding, at (b, n, 0), the distance from point `n` to its nearest neighbour. -/
theorem final2 (c : Dev nD) (h : Sweep.RowsDone m c) : (dats m 0 c).arrAt 2 cfg0.N = Sweep.nearest1 m c :=
  (dats m 0 c).arrAt_eq_of_cover 2 (Sweep.nearest1 m c) (flushed2_eq m c h) cover2

/-- The second result array ends holding, at (b, 0, k), the distance from point `k` of the second cloud to its nearest
    neighbour in the first. -/
theorem final3 (c : Dev nD) (h : Sweep.ColsDone m c) : (dats m 0 c).arrAt 3 cfg0.N = Sweep.nearest2 m c :=
  (dats m 0 c).arrAt_eq_of_cover 3 (Sweep.nearest2 m c) (flushed3_eq m c h) cover3

end Cert.KernelIdeal.Final

end
-- ==== Proof.LibSumIdx3.lean ====
/-
  A sum over a rank-3 index set, in any commutative monoid, is the iterated sum over its three coordinates
  (the rank-3 companion of the library's rank-2 `sum_idx2`), and with a middle axis of extent one the middle
  sum disappears.
-/
import Idealize.ShloMosaic.Lib.ValueIdx

noncomputable section

open scoped BigOperators

namespace Cert.SumIdx3

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a middle axis of extent one (a kept, "keepdims" axis) the sum runs over the outer and inner coordinates only. -/
theorem sum_idx3_unit {M : Type*} [AddCommMonoid M] {n0 n2 : Nat} (f : (⟨3, ![n0, 1, n2]⟩ : Shape).Idx → M) :
    ∑ i, f i = ∑ a : Fin n0, ∑ c : Fin n2, f (ix3 a 0 c) := by
  rw [sum_idx3]
  refine Finset.sum_congr rfl fun a _ => ?_
  rw [Fin.sum_univ_one]

end Cert.SumIdx3

end
-- ==== Proof.KernelRun.lean ====
/-
  The kernel's run, read: with both sweeps done, the program's result is the Chamfer value of the difference-form table
  of its two argument arrays.

  The region is launched on the first cloud and on the second cloud transposed to [batch, coordinate, point]; read back
  through the transpose, the body's table of clamped squared distances is the difference-form table of the two clouds.
  After the region the program sums each of the two nearest-neighbour arrays over all its indices from the float zero,
  divides each sum by 32768 and adds the quotients: the two double sums of the Chamfer value.
-/
import proofs.«120116_j62191126446336_2_alg».proof.Proof.FinalArrays
import proofs.«120116_j62191126446336_2_alg».proof.Proof.LibSumIdx3
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Run

open Cert.KernelIdeal Cert.KernelIdeal.Gen Idealize.ShloMosaic.ValueIdx Idealize.ShloMosaic.StableHlo

variable (m : (ℓ : Loc nD τ sig) → Buf (Elt Ideal) ℓ)

/-- The transposed second cloud, as the region finds it, at (b, d, k) is the second argument at (b, k, d). -/
theorem ptsYt_apply (c : Dev nD) (b : Fin 8) (d : Fin 3) (k : Fin 4096) :
    Sweep.ptsYt m c (ix3 b d k) = m ((c : Thread nD τ).loc main_arg1) (ix3 b k d) := by
  show StableHlo.after hostOps0 (fun b => m (c, b)) (Proc.devRef .tc main_v0) (ix3 b d k) = _
  after_results
  exact transpose_apply _ _ _ _ _ (fun a => by match a with | ⟨0, _⟩ => rfl | ⟨1, _⟩ => rfl | ⟨2, _⟩ => rfl)

/-- The first cloud, as the region finds it, is the first argument. -/
theorem ptsX_eq (c : Dev nD) : Sweep.ptsX m c = m ((c : Thread nD τ).loc main_arg0) := V_main_arg0 m c

/-- The body's table is the difference-form table of the two argument arrays. -/
theorem dist_eq (c : Dev nD) (b : Fin 8) (n k : Fin 4096) :
    Sweep.dist m c b n k
      = Cert.Chamfer.sqDiff (m ((c : Thread nD τ).loc main_arg0)) (m ((c : Thread nD τ).loc main_arg1)) b n k := by
  unfold Sweep.dist Cert.Chamfer.sqDiff
  rw [ptsX_eq, ptsYt_apply, ptsYt_apply, ptsYt_apply]

/-- The total sum from the float zero of an [8, 4096, 1] array is zero plus the double sum over batch and row. -/
theorem sum_rows (x : S8x4096x1.Idx → EReal) (i : S_.Idx) :
    Host.reduceAdd (F := Ideal) x (constant S_ .f32 0x00000000#32) reducesTo_S8x4096x1_S_d0_1_2 h_S_ i
      = Cert.Chamfer.z32 + ∑ b : Fin 8, ∑ n : Fin 4096, x (ix3 b n 0) := by
  simp only [Host.reduceAdd, Ideal.hostReduceAdd_def]
  rw [Ideal.hostReduceAdd_total reducesTo_S8x4096x1_S_d0_1_2 (fun b => b.elim0) x _ i, Cert.SumIdx3.sum_idx3]
  simp only [Fin.sum_univ_one]
  rfl

/-- The total sum from the float zero of an [8, 1, 4096] array is zero plus the double sum over batch and column. -/
theorem sum_cols (x : S8x1x4096.Idx → EReal) (i : S_.Idx) :
    Host.reduceAdd (F := Ideal) x (constant S_ .f32 0x00000000#32) reducesTo_S8x1x4096_S_d0_1_2 h_S_ i
      = Cert.Chamfer.z32 + ∑ b : Fin 8, ∑ k : Fin 4096, x (ix3 b 0 k) := by
  simp only [Host.reduceAdd, Ideal.hostReduceAdd_def]
  rw [Ideal.hostReduceAdd_total reducesTo_S8x1x4096_S_d0_1_2 (fun b => b.elim0) x _ i, Cert.SumIdx3.sum_idx3_unit]
  rfl

/-- With both sweeps done the program's result is the Chamfer value of the difference-form table. -/
theorem result_eq (c : Dev nD) (hR : Sweep.RowsDone m c) (hC : Sweep.ColsDone m c) :
    Pipeline.afterTail₀ cfgs (dats m) 0 (V0 m) [hostOps1] c main_v6
      = fun _ => Cert.Chamfer.chamfer (Cert.Chamfer.sqDiff (m ((c : Thread nD τ).loc main_arg0)) (m ((c : Thread nD τ).loc main_arg1))) := by
  unfold Pipeline.afterTail₀
  show StableHlo.after hostOps1 _ (Proc.devRef .tc main_v6) = _
  after_results
  have e2 : Pipeline.withArrays (cfgs 0).spec c (V0 m c) (fun w => (dats m 0 c).arrAt w (cfgs 0).N) (Proc.devRef .tc main_v1_0)
      = Sweep.nearest1 m c :=
    (Pipeline.withArrays_arr spec0 launch0.win.arr_inj c (V0 m c) (fun w => (dats m 0 c).arrAt w cfg0.N) 2).trans
      (Final.final2 m c hR)
  have e3 : Pipeline.withArrays (cfgs 0).spec c (V0 m c) (fun w => (dats m 0 c).arrAt w (cfgs 0).N) (Proc.devRef .tc main_v1_1)
      = Sweep.nearest2 m c :=
    (Pipeline.withArrays_arr spec0 launch0.win.arr_inj c (V0 m c) (fun w => (dats m 0 c).arrAt w cfg0.N) 3).trans
      (Final.final3 m c hC)
  rw [e2, e3]
  funext i
  show Ideal.div (Host.reduceAdd (F := Ideal) (Sweep.nearest1 m c) (constant S_ .f32 0x00000000#32) reducesTo_S8x4096x1_S_d0_1_2 h_S_ i)
        (Ideal.ofBits .f32 0x47000000#32)
      + Ideal.div (Host.reduceAdd (F := Ideal) (Sweep.nearest2 m c) (constant S_ .f32 0x00000000#32) reducesTo_S8x1x4096_S_d0_1_2 h_S_ i)
        (Ideal.ofBits .f32 0x47000000#32) = _
  rw [sum_rows, sum_cols]
  unfold Cert.Chamfer.chamfer Sweep.nearest1 Sweep.nearest2
  simp only [dist_eq]

/-- The run, read: with both sweeps done on every core, every weakly fair execution of the program terminates with its
    result at the Chamfer value of the difference-form table of the two argument arrays, which are unchanged. -/
theorem run (ρ : Dev nD → PrngReg) (hR : ∀ c, Sweep.RowsDone m c) (hC : ∀ c, Sweep.ColsDone m c) :
    θ_run defs (onTc (τ := τ) (main (F := Ideal))) ⟨m, fun _ => 0, ρ⟩ (fun r => ∀ c : Dev nD,
      r.2.mem ((c.tc : Thread nD τ).loc main_v6)
          = (fun _ => Cert.Chamfer.chamfer (Cert.Chamfer.sqDiff (m ((c.tc : Thread nD τ).loc main_arg0)) (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (result_eq m c (hR c) (hC c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Run

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.RefStages.lean ====
/-
  The reference read stage by stage at coordinates. Its distance table, at batch `b`, point `n` of the first cloud and
  point `m` of the second, is the expanded form (|x|² + |y|²) − 2 (x · y) clamped below at zero (`refTable`); each of its
  two minimum-reductions from +∞ over one axis of the table is the infimum over that axis's coordinates; each total
  sum over the remaining two axes is the double sum over their coordinates.
-/
import proofs.«120116_j62191126446336_2_alg».proof.Proof.Gen.ReferenceIdeal.Read
import proofs.«120116_j62191126446336_2_alg».proof.Proof.Spec
import proofs.«120116_j62191126446336_2_alg».proof.Proof.LibERealFinite

noncomputable section

namespace Cert.RefSide

open Cert.ReferenceIdeal Cert.ReferenceIdeal.Gen Cert.ReferenceIdeal.Read Cert.Chamfer
open Idealize.ShloMosaic Idealize.ShloMosaic.ValueIdx

/-- The reference's table: squared norms added, twice the inner product subtracted, clamped below at zero. -/
def refTable (X Y : Cloud) (b : Fin 8) (n m : Fin 4096) : EReal :=
  max (((z32 + ∑ k : Fin 3, X (ix3 b n k) * X (ix3 b n k)) + (z32 + ∑ k : Fin 3, Y (ix3 b m k) * Y (ix3 b m k)))
        - Ideal.ofBits .f32 0x40000000#32 * ∑ k : Fin 3, X (ix3 b n k) * Y (ix3 b m k)) z32

/-- A fold of `min` from the top element over a whole finite type is the infimum. -/
theorem fold_min_top_eq_iInf {ι : Type} [Fintype ι] (f : ι → EReal) :
    (Finset.univ : Finset ι).fold min ⊤ f = ⨅ k, f k := by
  refine eq_of_forall_le_iff fun c => ?_
  rw [Finset.le_fold_min, le_iInf_iff]
  simp

/-- The same for the ideal instance's minimum started at the f32 pattern of +∞. -/
theorem fold_minimumf_eq_iInf {ι : Type} [Fintype ι] (f : ι → EReal) :
    (Finset.univ : Finset ι).fold (FloatOps.minimumf (F := Ideal) (φ := .f32)) (Ideal.ofBits .f32 0x7F800000#32) f
      = ⨅ k, f k := by
  rw [Cert.LibERealFinite.inf_eq]
  exact fold_min_top_eq_iInf f

/-- The table stage at coordinates. -/
theorem v14_apply (X Y : Cloud) (b : Fin 8) (n m : Fin 4096) :
    val_main_v14 (F := Ideal) X Y (ix3 b n m) = refTable X Y b n m := by
  have eL : ∀ k : Fin 3, lidx_main_v4 (ix3 b n m) k = ix3 b n k := fun k =>
    funext fun a => Fin.ext (by match a with | ⟨0, _⟩ => rfl | ⟨1, _⟩ => rfl | ⟨2, _⟩ => rfl)
  have eR : ∀ k : Fin 3, ridx_main_v4 (ix3 b n m) k = ix3 b m k := fun k =>
    funext fun a => Fin.ext (by match a with | ⟨0, _⟩ => rfl | ⟨1, _⟩ => rfl | ⟨2, _⟩ => rfl)
  have eX : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have eY : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  rw [val_main_v14_apply, val_main_v12_apply, val_main_v9_apply, val_main_v7_apply, val_main_v5_apply,
    val_main_v1_apply, val_main_v8_apply, val_main_v6_apply, val_main_v3_apply, val_main_v11_apply,
    val_main_v10_apply, val_main_v4_apply, val_main_v13_apply]
  simp only [val_main_v0_apply, val_main_v2_apply, val_main_cst_apply, val_main_cst_0_apply, val_main_cst_1_apply,
    val_main_cst_2_apply, eL, eR, eX, eY, Ideal.ofBits_def, Ideal.addf_def, Ideal.subf_def, Ideal.mulf_def,
    Ideal.maximumf_def]
  rfl

/-- The minimum over the second cloud's points, at coordinates. -/
theorem v15_apply (X Y : Cloud) (b : Fin 8) (n : Fin 4096) :
    val_main_v15 (F := Ideal) X Y (ix2 b n) = ⨅ m : Fin 4096, val_main_v14 (F := Ideal) X Y (ix3 b n m) := by
  have hR : S8x4096x4096.Reduces [2] S8x4096 := by decide
  unfold val_main_v15
  rw [Host.reduce_eq_fold_single FloatOps.minimumf _ _ reducesTo_S8x4096x4096_S8x4096_d2 hR h_S_, val_main_cst_3_apply,
    Ideal.ofBits_def, fold_minimumf_eq_iInf]
  refine iInf_congr fun m => ?_
  exact congrArg (val_main_v14 (F := Ideal) X Y)
    (funext fun a => Fin.ext (by match a with | ⟨0, _⟩ => rfl | ⟨1, _⟩ => rfl | ⟨2, _⟩ => rfl))

/-- The minimum over the first cloud's points, at coordinates. -/
theorem v16_apply (X Y : Cloud) (b : Fin 8) (m : Fin 4096) :
    val_main_v16 (F := Ideal) X Y (ix2 b m) = ⨅ n : Fin 4096, val_main_v14 (F := Ideal) X Y (ix3 b n m) := by
  have hR : S8x4096x4096.Reduces [1] S8x4096 := by decide
  unfold val_main_v16
  rw [Host.reduce_eq_fold_single FloatOps.minimumf _ _ reducesTo_S8x4096x4096_S8x4096_d1 hR h_S_, val_main_cst_4_apply,
    Ideal.ofBits_def, fold_minimumf_eq_iInf]
  refine iInf_congr fun n => ?_
  exact congrArg (val_main_v14 (F := Ideal) X Y)
    (funext fun a => Fin.ext (by match a with | ⟨0, _⟩ => rfl | ⟨1, _⟩ => rfl | ⟨2, _⟩ => rfl))

end Cert.RefSide

end
-- ==== Proof.RefLaw.lean ====
/-
  The squared distance between two points of 3-space, expanded: over real coordinates
  (|x|² + |y|²) − 2 (x · y) = (x₀ − y₀)² + (x₁ − y₁)² + (x₂ − y₂)², carried to the extended reals through the coercion,
  in the two associations the two programs use, each clamped below at zero. The float word of 2.0 is the real 2.
-/
import Idealize.ShloMosaic.PureOps.Ideal
import Idealize.ShloMosaic.PureOps.Ideal.Laws

noncomputable section

namespace Cert.RefSide

open Idealize.ShloMosaic

/-- The f32 pattern `0x40000000` is the real number 2. -/
theorem two_eq : Ideal.ofBits .f32 0x40000000#32 = ((2 : ℝ) : EReal) := by
  simp [Ideal.ofBits, Ideal.ieee]
  rw [← EReal.coe_mul]
  norm_num

/-- Expanded form equals difference form, over six real coordinates, in the extended reals. -/
theorem sqdist_law (x0 x1 x2 y0 y1 y2 : ℝ) :
    max ((((0 : EReal) + (((x0 : EReal) * x0 + (x1 : EReal) * x1) + (x2 : EReal) * x2))
          + ((0 : EReal) + (((y0 : EReal) * y0 + (y1 : EReal) * y1) + (y2 : EReal) * y2)))
        - ((2 : ℝ) : EReal) * ((((x0 : EReal) * y0) + (x1 : EReal) * y1) + (x2 : EReal) * y2)) (0 : EReal)
      = max ((((0 : EReal) + ((x0 : EReal) - y0) * ((x0 : EReal) - y0))
          + ((x1 : EReal) - y1) * ((x1 : EReal) - y1))
          + ((x2 : EReal) - y2) * ((x2 : EReal) - y2)) (0 : EReal) := by
  have e : (x0 * x0 + x1 * x1 + x2 * x2) + (y0 * y0 + y1 * y1 + y2 * y2) - 2 * (x0 * y0 + x1 * y1 + x2 * y2)
      = (x0 - y0) * (x0 - y0) + (x1 - y1) * (x1 - y1) + (x2 - y2) * (x2 - y2) := by ring
  simp only [zero_add, ← EReal.coe_mul, ← EReal.coe_add, ← EReal.coe_sub]
  rw [e]

end Cert.RefSide

end
-- ==== Proof.RefSide.lean ====
/-
  The reference computes the Chamfer value of the difference-form table whenever every entry of both clouds is real:
  over real entries its expanded table (|x|² + |y|²) − 2 (x · y), clamped below at zero, is the clamped sum of squared
  coordinate differences, entry by entry; its two minimum-reductions are the two nearest-neighbour infima and its
  two total sums the two double sums of the Chamfer value.
-/
import proofs.«120116_j62191126446336_2_alg».proof.Proof.RefStages
import proofs.«120116_j62191126446336_2_alg».proof.Proof.RefLaw

noncomputable section

namespace Cert.RefSide

open Cert.ReferenceIdeal Cert.ReferenceIdeal.Gen Cert.ReferenceIdeal.Read Cert.Chamfer
open Idealize.ShloMosaic Idealize.ShloMosaic.ValueIdx

/-- Over real entries the expanded table is the difference-form table. -/
theorem refTable_eq_sqDiff (X Y : Cloud) (hX : ∀ i, ∃ v : ℝ, X i = (v : EReal)) (hY : ∀ i, ∃ v : ℝ, Y i = (v : EReal))
    (b : Fin 8) (n m : Fin 4096) : refTable X Y b n m = sqDiff X Y b n m := by
  choose x hx using hX
  choose y hy using hY
  unfold refTable sqDiff
  rw [Fin.sum_univ_three, Fin.sum_univ_three, Fin.sum_univ_three]
  simp only [hx, hy, two_eq, Ideal.ofBits_zero_f32]
  exact sqdist_law _ _ _ _ _ _

/-- The reference's result, over real inputs, is the Chamfer value of the difference-form table. -/
theorem result_eq (X Y : Cloud) (hX : ∀ i, ∃ v : ℝ, X i = (v : EReal)) (hY : ∀ i, ∃ v : ℝ, Y i = (v : EReal)) :
    Cert.ReferenceIdeal.Read.val_main_v21 (F := Ideal) X Y = fun _ => chamfer (sqDiff X Y) := by
  funext i
  rw [val_main_v21_apply, val_main_v18_apply, val_main_v20_apply, val_main_v17_apply, val_main_v19_apply,
    sum_idx2, sum_idx2]
  simp only [val_main_cst_5_apply, val_main_cst_6_apply, val_main_cst_7_apply, val_main_cst_8_apply, v15_apply,
    v16_apply, v14_apply, refTable_eq_sqDiff X Y hX hY, Ideal.ofBits_def, Ideal.addf_def, Ideal.hostDivf_def]
  rfl

end Cert.RefSide

end
-- ==== Proof.Finite.lean ====
/-
  The precondition "every entry of both inputs has absolute value strictly below +∞", read back: every entry of both
  clouds is a real number.
-/
import proofs.«120116_j62191126446336_2_alg».proof.Pre_finite_inputs
import Idealize.ShloMosaic.Lib.ReduceAll
import Idealize.ShloMosaic.Lib.ValueIdx
import proofs.«120116_j62191126446336_2_alg».proof.Proof.Spec
import proofs.«120116_j62191126446336_2_alg».proof.Proof.LibERealFinite

noncomputable section

namespace Cert.RefSide

open Idealize.ShloMosaic Idealize.ShloMosaic.ValueIdx Cert.Chamfer

/-- The scalar shape has one index. -/
instance subsingleton_scalarIdx : Subsingleton Cert.Pre_finite_inputs.S_.Idx :=
  ⟨fun _ _ => funext fun d => d.elim0⟩

/-- If the conjunction over all entries of "|entry| < +∞", for both clouds, holds, every entry of both is real. -/
theorem finite_of_pre [Cert.Pre_finite_inputs.Facts] (X Y : Cloud)
    (h : Cert.Pre_finite_inputs.fn (F := Ideal) X Y = fun _ => 1#1) :
    (∀ i, ∃ v : ℝ, X i = (v : EReal)) ∧ (∀ i, ∃ v : ℝ, Y i = (v : EReal)) := by
  have h0 := congrFun h ix0
  dsimp only [Cert.Pre_finite_inputs.fn] at h0
  obtain ⟨hx, hy⟩ := IntOp.andi_eq_one.1 h0
  refine ⟨fun i => ?_, fun i => ?_⟩
  · exact Cert.LibERealFinite.real_of_abs_lt (X i) (Host.reduce_andi_all _ _ _ _ _ hx i)
  · exact Cert.LibERealFinite.real_of_abs_lt (Y i) (Host.reduce_andi_all _ _ _ _ _ hy i)

end Cert.RefSide

end
-- ==== Proof.lean ====
/-
  A fused Chamfer-distance kernel against its jnp reference, on the extended reals.

  Both programs take two batched point clouds `X`, `Y` (8 batches of 4096 points in 3-space) and return
  `mean_{b,n} min_m D(b,n,m) + mean_{b,m} min_n D(b,n,m)` for a table `D` of clamped squared distances. The kernel
  computes `D` in difference form, `max(((0 + (x₀-y₀)²) + (x₁-y₁)²) + (x₂-y₂)², 0)`, one 2048 × 1024 tile per grid point,
  and takes both directional minima from the same tile: row minima accumulated over the four column tiles of a row
  sweep, column minima accumulated over the two row tiles of a batch. The reference computes `D` in expanded form,
  `max((‖x‖² + ‖y‖²) - 2·⟨x,y⟩, 0)`, over whole arrays. On real (finite) entries the two forms are one number — the
  expansion of a square, which distributes and cancels and so fails at infinities: this is where the precondition is
  used, and the only place. The minima and the means are the same functions of the table on both sides: a minimum over
  an initial segment extended by a block is the minimum over the longer segment, and a finite sum does not depend on
  how its index set is laid out.

  * Spec: the Chamfer value of a table; the table in difference form.
  * BodyValues, BodyTile: the kernel body's arithmetic read at an index (the tile, its row and column minima, the two
    accumulator updates).
  * Pieces, PiecesA–E: what the body's stores leave in the two accumulators and the two output blocks, in each of the
    five cases of its conditionals.
  * Sweep, SweepBlocks, SweepAt, SweepSteps: the invariant of the sweep over the grid, by induction on the point, and
    what the stored output blocks therefore hold.
  * FinalArrays, KernelRun: the two result arrays after the region, the host's means of them, the kernel's run.
  * RefLaw, RefStages, RefSide: the reference read stage by stage; the expansion of the square over the reals.
  * Finite: every entry of a finite input is a real number.
-/
import proofs.«120116_j62191126446336_2_alg».proof.Defs
import proofs.«120116_j62191126446336_2_alg».proof.Proof.Gen.Kernel
import proofs.«120116_j62191126446336_2_alg».proof.Proof.Gen.Kernel.Skeleton
import proofs.«120116_j62191126446336_2_alg».proof.Proof.Gen.Kernel.Launch
import proofs.«120116_j62191126446336_2_alg».proof.Proof.Gen.Kernel.Points
import proofs.«120116_j62191126446336_2_alg».proof.Proof.Gen.Kernel.Frame
import proofs.«120116_j62191126446336_2_alg».proof.Proof.Gen.KernelIdeal
import proofs.«120116_j62191126446336_2_alg».proof.Proof.Gen.KernelIdeal.Skeleton
import proofs.«120116_j62191126446336_2_alg».proof.Proof.Gen.KernelIdeal.Launch
import proofs.«120116_j62191126446336_2_alg».proof.Proof.Gen.KernelIdeal.Points
import proofs.«120116_j62191126446336_2_alg».proof.Proof.Gen.KernelIdeal.Frame
import proofs.«120116_j62191126446336_2_alg».proof.Proof.Gen.ReferenceIdeal
import proofs.«120116_j62191126446336_2_alg».proof.Proof.Gen.ReferenceIdeal.Run
import proofs.«120116_j62191126446336_2_alg».proof.Proof.Gen.ReferenceIdeal.Read
import proofs.«120116_j62191126446336_2_alg».proof.Proof.Gen.Pre_finite_inputs
import proofs.«120116_j62191126446336_2_alg».proof.Proof.SweepSteps
import proofs.«120116_j62191126446336_2_alg».proof.Proof.KernelRun
import proofs.«120116_j62191126446336_2_alg».proof.Proof.RefSide
import proofs.«120116_j62191126446336_2_alg».proof.Proof.Finite
import Idealize.ShloMosaic.Adequacy
import Idealize.ShloMosaic.Init

noncomputable section

namespace Cert.Proof

open Idealize.ShloMosaic Idealize.SL.Sem

/-- The two idealized programs, run from memories that agree on the clouds, end with one value: the Chamfer value of
    the difference-form table of the clouds. The kernel's run gives it for any clouds; the reference's run gives the
    expanded-form table's value, which is the same once every entry is real. -/
theorem algebraic : Cert.algebraic_KernelIdeal_ReferenceIdeal := by
  intro m ρ m' ρ' hpre hagree
  refine ⟨fun c => fun _ => Cert.Chamfer.chamfer (Cert.Chamfer.sqDiff
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Run.run m ρ (Cert.KernelIdeal.Sweep.rowsDone m) (Cert.KernelIdeal.Sweep.colsDone m), ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.RefSide.finite_of_pre _ _ (hpre c)
  rw [(hagree c).1, (hagree c).2, Cert.ReferenceIdeal.Read.val_main_v21_eq]
  exact Cert.RefSide.result_eq _ _ hX hY

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
